-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53_1)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_1) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x32 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x32 .f32 := Host.absf main_arg13
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S1x32 .f32) (main_arg10 : FVec F S1 .f32) (main_arg11 : FVec F S1x32 .f32) (main_arg12 : FVec F S1 .f32) (main_arg13 : FVec F S1x32 .f32) (main_arg14 : FVec F S1 .f32) (main_v33 : IVec S_ 1) : IVec S_ 1 :=
  let main_v34 : FVec F S1x32 .f32 := Host.absf main_arg9
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1x32 .f32 := Host.absf main_arg11
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_v48 main_v49 main_v50

def fn_part1 {F : FTy → Type} [FloatOps F] (main_arg6 : FVec F S32 .f32) (main_arg7 : FVec F S32x32 .f32) (main_arg8 : FVec F S32 .f32) (main_arg9 : FVec F S1x32 .f32) (main_arg10 : FVec F S1 .f32) (main_arg11 : FVec F S1x32 .f32) (main_arg12 : FVec F S1 .f32) (main_arg13 : FVec F S1x32 .f32) (main_arg14 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S32x128 .f32) (main_arg6 : FVec F S32 .f32) (main_arg7 : FVec F S32x32 .f32) (main_arg8 : FVec F S32 .f32) (main_arg9 : FVec F S1x32 .f32) (main_arg10 : FVec F S1 .f32) (main_arg11 : FVec F S1x32 .f32) (main_arg12 : FVec F S1 .f32) (main_arg13 : FVec F S1x32 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x640000 : Shape := ⟨2, ![1, 640000]⟩
abbrev S640000 : Shape := ⟨1, ![640000]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S128x32 : Shape := ⟨2, ![128, 32]⟩
abbrev S32x1 : Shape := ⟨2, ![32, 1]⟩
abbrev S1x1 : Shape := ⟨2, ![1, 1]⟩
abbrev S50000x32 : Shape := ⟨2, ![50000, 32]⟩
abbrev S5000x32 : Shape := ⟨2, ![5000, 32]⟩
abbrev S5000x1 : Shape := ⟨2, ![5000, 1]⟩
abbrev S128x1 : Shape := ⟨2, ![128, 1]⟩

abbrev nBuf : Space → Nat
  | .hbm => 120
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S32x128, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x32, .f32⟩
  | .hbm, ⟨12, _⟩ => ⟨S1, .f32⟩
  | .hbm, ⟨13, _⟩ => ⟨S1x32, .f32⟩
  | .hbm, ⟨14, _⟩ => ⟨S1, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S128x128, .f32⟩
  | .hbm, ⟨20, _⟩ => ⟨S50000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S50000, .f32⟩
  | .hbm, ⟨25, _⟩ => ⟨S640000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000, .f32⟩
  | .hbm, ⟨49, _⟩ => ⟨S640000, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S640000x1, .f32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S50000x128, .f32⟩
  | .hbm, ⟨64, _⟩ => ⟨S640000x1, .i32⟩
  | .hbm, ⟨65, _⟩ => ⟨S50000x128, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S128x32, .f32⟩
  | .hbm, ⟨73, _⟩ => ⟨S1x32, .f32⟩
  | .hbm, ⟨74, _⟩ => ⟨S32x32, .f32⟩
  | .hbm, ⟨75, _⟩ => ⟨S1x32, .f32⟩
  | .hbm, ⟨76, _⟩ => ⟨S32x1, .f32⟩
  | .hbm, ⟨77, _⟩ => ⟨S1x1, .f32⟩
  | .hbm, ⟨78, _⟩ => ⟨S50000x32, .f32⟩
  | .hbm, ⟨79, _⟩ => ⟨S50000x1, .f32⟩
  | .hbm, ⟨80, _⟩ => ⟨S_, .f32⟩
  | .hbm, ⟨81, _⟩ => ⟨S128x32, .f32⟩
  | .hbm, ⟨82, _⟩ => ⟨S50000x1, .i32⟩
  | .hbm, ⟨83, _⟩ => ⟨S128x32, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S128, .f32⟩
  | .hbm, ⟨88, _⟩ => ⟨S50000x1, .i32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128x1, .f32⟩
  | .hbm, ⟨94, _⟩ => ⟨S128x32, .f32⟩
  | .hbm, ⟨95, _⟩ => ⟨S128x32, .f32⟩
  | .hbm, ⟨96, _⟩ => ⟨S32x1, .f32⟩
  | .hbm, ⟨97, _⟩ => ⟨S128x1, .f32⟩
  | .hbm, ⟨98, _⟩ => ⟨S1x1, .f32⟩
  | .hbm, ⟨99, _⟩ => ⟨S128x1, .f32⟩
  | .hbm, ⟨100, _⟩ => ⟨S128x1, .f32⟩
  | .hbm, ⟨101, _⟩ => ⟨S32x1, .f32⟩
  | .hbm, ⟨102, _⟩ => ⟨S128x1, .f32⟩
  | .hbm, ⟨103, _⟩ => ⟨S1x1, .f32⟩
  | .hbm, ⟨104, _⟩ => ⟨S128x1, .f32⟩
  | .hbm, ⟨105, _⟩ => ⟨S128x1, .f32⟩
  | .hbm, ⟨106, _⟩ => ⟨S_, .f32⟩
  | .hbm, ⟨107, _⟩ => ⟨S128x1, .f32⟩
  | .hbm, ⟨108, _⟩ => ⟨S128x1, .f32⟩
  | .hbm, ⟨109, _⟩ => ⟨S128x1, .f32⟩
  | .hbm, ⟨110, _⟩ => ⟨S128x1, .f32⟩
  | .hbm, ⟨111, _⟩ => ⟨S128x1, .i1⟩
  | .hbm, ⟨112, _⟩ => ⟨S128x1, .f32⟩
  | .hbm, ⟨113, _⟩ => ⟨S128x1, .f32⟩
  | .hbm, ⟨114, _⟩ => ⟨S128x1, .f32⟩
  | .hbm, ⟨115, _⟩ => ⟨S128x1, .f32⟩
  | .hbm, ⟨116, _⟩ => ⟨S128x1, .f32⟩
  | .hbm, ⟨117, _⟩ => ⟨S128x1, .f32⟩
  | .hbm, ⟨118, _⟩ => ⟨S128x1, .f32⟩
  | .hbm, ⟨119, _⟩ => ⟨S128x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S5000x32, .f32⟩
  | .local _ .vmem, ⟨17, _⟩ => ⟨S5000x32, .f32⟩
  | .local _ .vmem, ⟨18, _⟩ => ⟨S5000x1, .f32⟩
  | .local _ .vmem, ⟨19, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53_0 : Ref sig .tc := ⟨.hbm, 78, rfl⟩
abbrev main_v53_1 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_v76 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc1_sem10_0 : DmaSem sig := 18
abbrev cc1_sem10_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  transposes_S32x128_S128x32_1_0 : S32x128.Transposes [1, 0] S128x32
  shapeCasts_S32_S1x32 : S32.ShapeCasts S1x32
  transposes_S32x32_S32x32_1_0 : S32x32.Transposes [1, 0] S32x32
  transposes_S1x32_S32x1_1_0 : S1x32.Transposes [1, 0] S32x1
  shapeCasts_S1_S1x1 : S1.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  bcast_S_S128x32 : S_.BroadcastsInDim S128x32 (![] : Fin 0 → Fin S128x32.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  dot_S5000x128_S128x128_S5000x128_1_0_0_1_n_n_wf : DotDims.WF S5000x128 S128x128 S5000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  scatter_S128x32_S50000x1_S50000x32_1_0_0_1_wf : ScatterDims.WF S128x32 S50000x1 S50000x32 [1] [0] [0] 1
  scatter_S128_S50000x1_S50000_n_0_0_1_wf : ScatterDims.WF S128 S50000x1 S50000 [] [0] [0] 1
  dot_S128x32_S32x1_S128x1_1_0_0_1_n_n_wf : DotDims.WF S128x32 S32x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S50000x32.size a
  hwx1_9 : ∀ i : grid1.Coords, EltTy.bits .f32 = 32 ∨ (Rect.block (s := S50000x32) S5000x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S50000x1.size a
  hwx1_10 : ∀ i : grid1.Coords, EltTy.bits .f32 = 32 ∨ (Rect.block (s := S50000x1) S5000x1.size (cc1_transform_10 i) (hinb1_10 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def scatter_S128x32_S50000x1_S50000x32_1_0_0_1 : ScatterDims S128x32 S50000x1 S50000x32 where
  updateWindowDims := [1]
  insertedWindowDims := [0]
  scatterDimsToOperandDims := [0]
  indexVectorDim := 1
  wf := scatter_S128x32_S50000x1_S50000x32_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53_0) S5000x32.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v53_1) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S128x32 : Shape := ⟨2, ![128, 32]⟩
abbrev S50000x32 : Shape := ⟨2, ![50000, 32]⟩
abbrev S32x1 : Shape := ⟨2, ![32, 1]⟩
abbrev S1x1 : Shape := ⟨2, ![1, 1]⟩
abbrev S128x1 : Shape := ⟨2, ![128, 1]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S32x128, .f32⟩
  | 6 => ⟨S32, .f32⟩
  | 7 => ⟨S32x32, .f32⟩
  | 8 => ⟨S32, .f32⟩
  | 9 => ⟨S1x32, .f32⟩
  | 10 => ⟨S1, .f32⟩
  | 11 => ⟨S1x32, .f32⟩
  | 12 => ⟨S1, .f32⟩
  | 13 => ⟨S1x32, .f32⟩
  | 14 => ⟨S1, .f32⟩
  | 15 => ⟨S1x640000, .i32⟩
  | 16 => ⟨S640000, .i32⟩
  | 17 => ⟨S1x640000, .i32⟩
  | 18 => ⟨S640000, .i32⟩
  | 19 => ⟨S128x128, .f32⟩
  | 20 => ⟨S50000x128, .f32⟩
  | 21 => ⟨S_, .f32⟩
  | 22 => ⟨S640000, .f32⟩
  | 23 => ⟨S_, .f32⟩
  | 24 => ⟨S50000, .f32⟩
  | 25 => ⟨S640000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S640000, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S640000x1, .f32⟩
  | 60 => ⟨S640000x128, .f32⟩
  | 61 => ⟨S640000x128, .f32⟩
  | 62 => ⟨S_, .f32⟩
  | 63 => ⟨S50000x128, .f32⟩
  | 64 => ⟨S640000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S128x32, .f32⟩
  | 79 => ⟨S50000x32, .f32⟩
  | 80 => ⟨S1x32, .f32⟩
  | 81 => ⟨S50000x32, .f32⟩
  | 82 => ⟨S50000x32, .f32⟩
  | 83 => ⟨S_, .f32⟩
  | 84 => ⟨S50000x32, .f32⟩
  | 85 => ⟨S50000x32, .f32⟩
  | 86 => ⟨S32x32, .f32⟩
  | 87 => ⟨S50000x32, .f32⟩
  | 88 => ⟨S1x32, .f32⟩
  | 89 => ⟨S50000x32, .f32⟩
  | 90 => ⟨S50000x32, .f32⟩
  | 91 => ⟨S_, .f32⟩
  | 92 => ⟨S50000x32, .f32⟩
  | 93 => ⟨S50000x32, .f32⟩
  | 94 => ⟨S32x1, .f32⟩
  | 95 => ⟨S50000x1, .f32⟩
  | 96 => ⟨S1x1, .f32⟩
  | 97 => ⟨S50000x1, .f32⟩
  | 98 => ⟨S50000x1, .f32⟩
  | 99 => ⟨S_, .f32⟩
  | 100 => ⟨S128x32, .f32⟩
  | 101 => ⟨S50000x1, .i32⟩
  | 102 => ⟨S128x32, .f32⟩
  | 103 => ⟨S_, .f32⟩
  | 104 => ⟨S50000, .f32⟩
  | 105 => ⟨S_, .f32⟩
  | 106 => ⟨S128, .f32⟩
  | 107 => ⟨S50000x1, .i32⟩
  | 108 => ⟨S128, .f32⟩
  | 109 => ⟨S_, .f32⟩
  | 110 => ⟨S128, .f32⟩
  | 111 => ⟨S128, .f32⟩
  | 112 => ⟨S128x1, .f32⟩
  | 113 => ⟨S128x32, .f32⟩
  | 114 => ⟨S128x32, .f32⟩
  | 115 => ⟨S32x1, .f32⟩
  | 116 => ⟨S128x1, .f32⟩
  | 117 => ⟨S1x1, .f32⟩
  | 118 => ⟨S128x1, .f32⟩
  | 119 => ⟨S128x1, .f32⟩
  | 120 => ⟨S32x1, .f32⟩
  | 121 => ⟨S128x1, .f32⟩
  | 122 => ⟨S1x1, .f32⟩
  | 123 => ⟨S128x1, .f32⟩
  | 124 => ⟨S128x1, .f32⟩
  | 125 => ⟨S_, .f32⟩
  | 126 => ⟨S128x1, .f32⟩
  | 127 => ⟨S128x1, .f32⟩
  | _ => ⟨S50000x128, .f32⟩

abbrev hbmTy0_1 (i : Nat) : BufTy := match i % 128 with
  | 0 => ⟨S128x1, .f32⟩
  | 1 => ⟨S128x1, .f32⟩
  | 2 => ⟨S128x1, .i1⟩
  | 3 => ⟨S128x1, .f32⟩
  | 4 => ⟨S128x1, .f32⟩
  | 5 => ⟨S128x1, .f32⟩
  | 6 => ⟨S128x1, .f32⟩
  | 7 => ⟨S128x1, .f32⟩
  | 8 => ⟨S128x1, .f32⟩
  | 9 => ⟨S128x1, .f32⟩
  | 10 => ⟨S128x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call0_cst : Ref sig .tc := ⟨.hbm, 74, rfl⟩
abbrev main_call0_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call2_cst : Ref sig .tc := ⟨.hbm, 91, rfl⟩
abbrev main_call2_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S128x32 : S_.BroadcastsInDim S128x32 (![] : Fin 0 → Fin S128x32.rank)
  bcast_S_S128 : S_.BroadcastsInDim S128 (![] : Fin 0 → Fin S128.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  dot_S50000x128_S128x128_S50000x128_1_0_0_1_n_n_wf : DotDims.WF S50000x128 S128x128 S50000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  dot_S50000x32_S32x1_S50000x1_1_0_0_1_n_n_wf : DotDims.WF S50000x32 S32x1 S50000x1 [1] [0] [0] [1] [] []
  scatter_S128x32_S50000x1_S50000x32_1_0_0_1_wf : ScatterDims.WF S128x32 S50000x1 S50000x32 [1] [0] [0] 1
  scatter_S128_S50000x1_S50000_n_0_0_1_wf : ScatterDims.WF S128 S50000x1 S50000 [] [0] [0] 1
  dot_S128x32_S32x1_S128x1_1_0_0_1_n_n_wf : DotDims.WF S128x32 S32x1 S128x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def scatter_S128x32_S50000x1_S50000x32_1_0_0_1 : ScatterDims S128x32 S50000x1 S50000x32 where
  updateWindowDims := [1]
  insertedWindowDims := [0]
  scatterDimsToOperandDims := [0]
  indexVectorDim := 1
  wf := scatter_S128x32_S50000x1_S50000x32_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

class Facts : Prop extends Facts₀ where

variable [Facts]
-- ==== Proof.KernelRun.lean ====
/-
  The idealized kernel's run, with its RESULTS named.

  @main of the kernel is six segments: a stretch of host operations, the first pallas_call (x · conv_wᵀ, ten row
  blocks of 5000), the host stretch that aggregates over the edges, the second pallas_call (the residual and the two
  dense layers, ten row blocks again), and two host stretches that pool per graph and apply the last two heads. The
  frame certificate follows the TensorCore's buffer contents through these segments: `W0` at launch, `W1` … `W6`
  after each segment. Its conclusion keeps only the argument arrays. Here the same launch is concluded at EVERY
  unscoped buffer: after any weakly fair execution each one holds what the fold `W6` says, in particular the three
  result buffers.
-/
import proofs.«118099_j42210938585671_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer of
    every core holds the contents the fold through the six segments ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run, read at one buffer: an unscoped buffer `b` of the TensorCore ends at `W6`'s contents. -/
theorem read_W6 {r : PUnit × MemSt nD τ sig (Elt F)}
    (h : ∀ c : Dev nD, ∀ b ∈ Pipeline.ucRefs τ sig, r.2.mem (((c : Thread nD τ)).1, b) = W6 m ρ c b)
    (c : Dev nD) (b : Ref sig .tc) (hb : ¬ (Proc.devRef .tc b : DevRef τ sig).isScoped) :
    r.2.mem ((c.tc : Thread nD τ).loc b) = W6 m ρ c (Proc.devRef .tc b) :=
  h c _ (mem_uc b hb)

end Cert.KernelIdeal.Results

end
-- ==== Proof.BlockMatmul.lean ====
/-
  The kernel's four matrix products, read at an entry.

  Each pallas_call body multiplies a block of 5000 rows by a whole weight matrix on the MXU, into a zero accumulator.
  On the extended reals such a product is the plain sum over the contracted axis: entry (r, j) of A · B is
  ∑ₖ A(r, k) · B(k, j). The contraction index of the printed dimension record is a one-axis index; it is re-indexed
  here by `Fin K`, and the operand indices the record computes are identified with (r, k) and (k, j).
-/
import proofs.«118099_j42210938585671_1_alg».proof.Proof.Gen.KernelIdeal
import Idealize.ShloMosaic.Lib.ValueIdx
import Idealize.ShloMosaic.PureOps.Ideal.Laws

noncomputable section

namespace Cert.KernelIdeal.BlockMatmul

open Cert.KernelIdeal Idealize.ShloMosaic Idealize.ShloMosaic.ValueIdx

/-! ### [5000, 128] · [128, 128] -/

theorem lhs0_128_128 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1_128_128 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0_128_128 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1_128_128 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a [128, 128] matrix, into the zero accumulator: entry (r, j) is the sum over k of
    the row's entry k times the matrix's entry (k, j). -/
theorem matmul_128_128 {φ₁ φ₂ : FTy} (A : FVec Ideal S5000x128 φ₁) (B : FVec Ideal S128x128 φ₂) (r : Fin 5000) (j : Fin 128) :
    matmul dot_S5000x128_S128x128_S5000x128_1_0_0_1_n_n none A B (constant S5000x128 .f32 0x00000000#32) (ix2 r j)
      = ∑ k : Fin 128, A (ix2 r k) * B (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs0_128_128 _ _
    | ⟨1, _⟩ => exact (lhs1_128_128 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs0_128_128 _ _).trans hk
    | ⟨1, _⟩ => exact rhs1_128_128 _ _)
  rw [el, er]

/-! ### [5000, 128] · [128, 32] -/

theorem lhs0_128_32 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs1_128_32 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem rhs0_128_32 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem rhs1_128_32 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- A block of 5000 rows times a [128, 32] matrix, into the zero accumulator: entry (r, j) is the sum over k of
    the row's entry k times the matrix's entry (k, j). -/
theorem matmul_128_32 {φ₁ φ₂ : FTy} (A : FVec Ideal S5000x128 φ₁) (B : FVec Ideal S128x32 φ₂) (r : Fin 5000) (j : Fin 32) :
    matmul dot_S5000x128_S128x32_S5000x32_1_0_0_1_n_n none A B (constant S5000x32 .f32 0x00000000#32) (ix2 r j)
      = ∑ k : Fin 128, A (ix2 r k) * B (ix2 k j) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 r j) ((contrEquiv1 dot_S5000x128_S128x32_S5000x32_1_0_0_1_n_n 128 rfl rfl).symm k) = ix2 r k := funext fun a => Fin.ext (by
    match a with
    | ⟨0, _⟩ => exact lhs0_128_32 _ _
    | ⟨1, _⟩ => exact (lhs1_128_32 _ _).trans hk)
  have er : dot_S5000x128_S128x32_S5000x32_1_0_0_1_n_n.rhsIdx (ix2 r j) ((contrEquiv1 dot_S5000x128_S128x32_S5000x32_1_0_0_1_n_n 128 rfl rfl).symm k) = ix2 k j := funext fun a => Fin.ext (by
    match a with
    | ⟨0, _⟩ => exact (rhs0_128_32 _ _).trans hk
    | ⟨1, _⟩ => exact rhs1_128_32 _ _)
  rw [el, er]

/-! ### [5000, 32] · [32, 32] -/

theorem lhs0_32_32 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs1_32_32 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem rhs0_32_32 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem rhs1_32_32 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A block of 5000 rows times a [32, 32] matrix, into the zero accumulator: entry (r, j) is the sum over k of
    the row's entry k times the matrix's entry (k, j). -/
theorem matmul_32_32 {φ₁ φ₂ : FTy} (A : FVec Ideal S5000x32 φ₁) (B : FVec Ideal S32x32 φ₂) (r : Fin 5000) (j : Fin 32) :
    matmul dot_S5000x32_S32x32_S5000x32_1_0_0_1_n_n none A B (constant S5000x32 .f32 0x00000000#32) (ix2 r j)
      = ∑ k : Fin 32, A (ix2 r k) * B (ix2 k j) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 r j) ((contrEquiv1 dot_S5000x32_S32x32_S5000x32_1_0_0_1_n_n 32 rfl rfl).symm k) = ix2 r k := funext fun a => Fin.ext (by
    match a with
    | ⟨0, _⟩ => exact lhs0_32_32 _ _
    | ⟨1, _⟩ => exact (lhs1_32_32 _ _).trans hk)
  have er : dot_S5000x32_S32x32_S5000x32_1_0_0_1_n_n.rhsIdx (ix2 r j) ((contrEquiv1 dot_S5000x32_S32x32_S5000x32_1_0_0_1_n_n 32 rfl rfl).symm k) = ix2 k j := funext fun a => Fin.ext (by
    match a with
    | ⟨0, _⟩ => exact (rhs0_32_32 _ _).trans hk
    | ⟨1, _⟩ => exact rhs1_32_32 _ _)
  rw [el, er]

/-! ### [5000, 32] · [32, 1] -/

theorem lhs0_32_1 (i : S5000x1.Idx) (q : dot_S5000x32_S32x1_S5000x1_1_0_0_1_n_n.contr.Idx) : (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs1_32_1 (i : S5000x1.Idx) (q : dot_S5000x32_S32x1_S5000x1_1_0_0_1_n_n.contr.Idx) : (dot_S5000x32_S32x1_S5000x1_1_0_0_1_n_n.lhsIdx i q 1).val = (q ⟨0, by decide⟩).val :=
  dot_S5000x32_S32x1_S5000x1_1_0_0_1_n_n.lhsIdx_val_of_single rfl i q
theorem rhs0_32_1 (i : S5000x1.Idx) (q : dot_S5000x32_S32x1_S5000x1_1_0_0_1_n_n.contr.Idx) : (dot_S5000x32_S32x1_S5000x1_1_0_0_1_n_n.rhsIdx i q 0).val = (q ⟨0, by decide⟩).val :=
  dot_S5000x32_S32x1_S5000x1_1_0_0_1_n_n.rhsIdx_val_of_single rfl i q
theorem rhs1_32_1 (i : S5000x1.Idx) (q : dot_S5000x32_S32x1_S5000x1_1_0_0_1_n_n.contr.Idx) : (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- A block of 5000 rows times a [32, 1] matrix, into the zero accumulator: entry (r, j) is the sum over k of
    the row's entry k times the matrix's entry (k, j). -/
theorem matmul_32_1 {φ₁ φ₂ : FTy} (A : FVec Ideal S5000x32 φ₁) (B : FVec Ideal S32x1 φ₂) (r : Fin 5000) (j : Fin 1) :
    matmul dot_S5000x32_S32x1_S5000x1_1_0_0_1_n_n none A B (constant S5000x1 .f32 0x00000000#32) (ix2 r j)
      = ∑ k : Fin 32, A (ix2 r k) * B (ix2 k j) := by
  simp only [matmul]
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 r j) ((contrEquiv1 dot_S5000x32_S32x1_S5000x1_1_0_0_1_n_n 32 rfl rfl).symm k) = ix2 r k := funext fun a => Fin.ext (by
    match a with
    | ⟨0, _⟩ => exact lhs0_32_1 _ _
    | ⟨1, _⟩ => exact (lhs1_32_1 _ _).trans hk)
  have er : dot_S5000x32_S32x1_S5000x1_1_0_0_1_n_n.rhsIdx (ix2 r j) ((contrEquiv1 dot_S5000x32_S32x1_S5000x1_1_0_0_1_n_n 32 rfl rfl).symm k) = ix2 k j := funext fun a => Fin.ext (by
    match a with
    | ⟨0, _⟩ => exact (rhs0_32_1 _ _).trans hk
    | ⟨1, _⟩ => exact rhs1_32_1 _ _)
  rw [el, er]

end Cert.KernelIdeal.BlockMatmul

end
-- ==== Proof.RowSpec.lean ====
/-
  The dense part of the network, one node at a time.

  After the aggregation over the edges every remaining layer acts on each node's feature row by itself. For a node
  with aggregated features `a` and input features `x` (128 numbers each):
    h  = relu (a + b₁) + x                     (the convolution's bias, the rectifier, the residual)
    h₁ = relu (h · W₁ + b₂)                    (128 → 32)
    ℓ  = relu (h₁ · W₂ + b₃)                   (32 → 32: the node's last hidden row)
    c  = ℓ · w₃ + b₄                           (32 → 1: the concentration head)
  over the extended reals, a product of a row with a matrix being the plain sum over the contracted axis. Both
  programs compute exactly these rows: the reference on whole arrays, the kernel on blocks of 5000 nodes.
-/
import Idealize.ShloMosaic.PureOps.Ideal

noncomputable section

namespace Cert.RowSpec

/-- The rectifier on the extended reals. -/
def relu (x : EReal) : EReal := max x 0

/-- A dense layer on one row: `v · W + b`. -/
def dense {K C : ℕ} (v : Fin K → EReal) (w : Fin K → Fin C → EReal) (b : Fin C → EReal) : Fin C → EReal :=
  fun j => (∑ k : Fin K, v k * w k j) + b j

/-- The row entering the first dense layer: bias, rectifier, residual. -/
def resid (a x b₁ : Fin 128 → EReal) : Fin 128 → EReal := fun l => relu (a l + b₁ l) + x l

/-- The node's last hidden row. -/
def last (a x b₁ : Fin 128 → EReal) (w₁ : Fin 128 → Fin 32 → EReal) (b₂ : Fin 32 → EReal)
    (w₂ : Fin 32 → Fin 32 → EReal) (b₃ : Fin 32 → EReal) : Fin 32 → EReal :=
  fun j => relu (dense (fun k => relu (dense (resid a x b₁) w₁ b₂ k)) w₂ b₃ j)

/-- The node's concentration, from its last hidden row. -/
def conc (ℓ : Fin 32 → EReal) (w₃ : Fin 32 → Fin 1 → EReal) (b₄ : Fin 1 → EReal) : Fin 1 → EReal :=
  dense ℓ w₃ b₄

end Cert.RowSpec

end
-- ==== Proof.Payloads.lean ====
/-
  What each pallas_call body stores, read at an entry.

  The first body stores the block's product with the transposed convolution weight: entry (r, j) is
  ∑ₖ X(r, k) · W(k, j). The second body stores two things, both functions of ONE row of its two 5000-row blocks and
  of the whole weight arrays: the last hidden row (`RowSpec.last`) and the concentration (`RowSpec.conc` of that
  row). The changes of float format in the bodies are the identity on the extended reals, a [1, n] bias row
  broadcast over the block reads its one row, and the zero splat the rectifier compares with is the number 0.
-/
import proofs.«118099_j42210938585671_1_alg».proof.Proof.Gen.KernelIdeal.Skeleton
import proofs.«118099_j42210938585671_1_alg».proof.Proof.BlockMatmul
import proofs.«118099_j42210938585671_1_alg».proof.Proof.RowSpec
import Idealize.ShloMosaic.Lib.Pipeline.Value
import Idealize.ShloMosaic.Lib.ValueLayout

noncomputable section

namespace Cert.KernelIdeal.Payloads

open Cert.KernelIdeal Cert.KernelIdeal.Gen Cert.KernelIdeal.BlockMatmul Cert.RowSpec
open Idealize.ShloMosaic Idealize.ShloMosaic.ValueIdx

/-- The scalar zero word is the number 0. -/
theorem scalar_zero : Scalar.ofBits (F := Ideal) .f32 0x00000000#32 = (0 : EReal) :=
  (show Scalar.ofBits (F := Ideal) .f32 0x00000000#32 = Ideal.ofBits .f32 0x00000000#32 from rfl).trans Ideal.ofBits_zero_f32

/-- The first body's store: the block times the (transposed) weight. -/
theorem conv_apply (X : Vec Ideal S5000x128 .f32) (W : Vec Ideal S128x128 .f32) (r : Fin 5000) (j : Fin 128) :
    k0_pay1 (F := Ideal) X W (ix2 r j) = ∑ k : Fin 128, X (ix2 r k) * W (ix2 k j) := by
  unfold k0_pay1
  simp only [matmul_128_128, truncf_apply, shapeCast_self]

/-- The second body's first store: the last hidden row of the block's row `r`. -/
theorem last_apply (X0 : Vec Ideal S5000x128 .f32) (X2 : Vec Ideal S1x128 .f32) (X8 : Vec Ideal S5000x128 .f32)
    (X11 : Vec Ideal S128x32 .f32) (X14 : Vec Ideal S1x32 .f32) (X22 : Vec Ideal S32x32 .f32) (X25 : Vec Ideal S1x32 .f32)
    (r : Fin 5000) (j : Fin 32) :
    k1_pay2 (F := Ideal) X0 X2 X8 X11 X14 X22 X25 (ix2 r j)
      = last (fun l => X0 (ix2 r l)) (fun l => X8 (ix2 r l)) (fun l => X2 (ix2 (0 : Fin 1) l))
          (fun l k => X11 (ix2 l k)) (fun k => X14 (ix2 (0 : Fin 1) k)) (fun k j => X22 (ix2 k j))
          (fun j => X25 (ix2 (0 : Fin 1) j)) j := by
  unfold k1_pay2 last dense resid relu
  simp only [maximumf_apply, addf_apply, matmul_32_32, matmul_128_32, truncf_apply, shapeCast_self,
    broadcastTo_1b_ab_apply, broadcast_apply, scalar_zero]

/-- The second body's second store: the concentration of the block's row `r`. -/
theorem conc_apply (X0 : Vec Ideal S5000x128 .f32) (X2 : Vec Ideal S1x128 .f32) (X8 : Vec Ideal S5000x128 .f32)
    (X11 : Vec Ideal S128x32 .f32) (X14 : Vec Ideal S1x32 .f32) (X22 : Vec Ideal S32x32 .f32) (X25 : Vec Ideal S1x32 .f32)
    (X33 : Vec Ideal S32x1 .f32) (X36 : Vec Ideal S1x1 .f32) (r : Fin 5000) (j : Fin 1) :
    k1_pay1 (F := Ideal) (k1_pay3 X0 X2 X8 X11 X14 X22 X25) (k1_pay4 X33) X36 (ix2 r j)
      = conc (fun k => k1_pay2 (F := Ideal) X0 X2 X8 X11 X14 X22 X25 (ix2 r k))
          (fun k j => X33 (ix2 k j)) (fun j => X36 (ix2 (0 : Fin 1) j)) j := by
  unfold k1_pay1 k1_pay3 k1_pay4 conc dense
  simp only [addf_apply, matmul_32_1, truncf_apply, shapeCast_self, broadcastTo_1b_ab_apply]

end Cert.KernelIdeal.Payloads

end
-- ==== Proof.ConvRegion.lean ====
/-
  The first pallas_call: what its output array holds after the run.

  The call walks ten grid points; point `t` stages rows 5000·t … 5000·t + 4999 of the node features and the whole
  transposed convolution weight, multiplies them, and writes the product back to the same rows of the output. The
  host operations before the call only slice the edge list and transpose the weight. So block `t` of the output is
  block `t` of ONE whole-array function — the reference's own first matrix product, node features times the transposed
  weight — and the ten blocks cover the array: after the call the output array IS that product.
-/
import proofs.«118099_j42210938585671_1_alg».proof.Proof.Gen.KernelIdeal.Frame
import proofs.«118099_j42210938585671_1_alg».proof.Proof.Gen.ReferenceIdeal.Read
import proofs.«118099_j42210938585671_1_alg».proof.Proof.Payloads
import Idealize.ShloMosaic.Lib.Pipeline.Value
import Idealize.ShloMosaic.Lib.StableHlo.Run
import Idealize.ShloMosaic.Lib.ValueIdx

set_option maxRecDepth 16384

noncomputable section

namespace Cert.KernelIdeal.ConvRegion

open Cert.KernelIdeal Cert.KernelIdeal.Gen Cert.KernelIdeal.Payloads
open Idealize.ShloMosaic Idealize.ShloMosaic.TcCoe Idealize.ShloMosaic.ValueIdx Idealize.ShloMosaic.StableHlo Idealize.SL.Sem
open Idealize.ShloMosaic.Pipeline (Dat)
open Cert.ReferenceIdeal.Read (val_main_v4 val_main_v5 val_main_v5_apply lidx_main_v5 ridx_main_v5)

variable (m : (ℓ : Loc nD τ sig) → Buf (Elt Ideal) ℓ) (ρ : Dev nD → PrngReg)

/-! ## What the call finds in its two input arrays -/

/-- The node features reach the call as launched. -/
theorem entry_x (c : Dev nD) : V1 m ρ c main_arg0 = m ((c : Thread nD τ).loc main_arg0) := by
  dsimp only [V1, W1, hostOps0]
  after_results

/-- The weight reaches the call transposed: the reference's own transposed weight. -/
theorem entry_w (c : Dev nD) :
    (V1 m ρ c main_v4 : S128x128.Idx → EReal) = val_main_v4 (F := Ideal) (m ((c : Thread nD τ).loc main_arg3)) := by
  dsimp only [V1, W1, hostOps0]
  after_results
  rfl

/-! ## One point -/

/-- Entry `y` of the body's product, for a block `X` holding rows of `x0` that include row `i 0` at position `y 0`,
    and the transposed weight `W`, is entry `i` of the whole product. -/
theorem point (X : Vec Ideal S5000x128 .f32) (W : Vec Ideal S128x128 .f32)
    (x0 : S50000x128.Idx → EReal) (x3 : S128x128.Idx → EReal) (y : S5000x128.Idx) (i : S50000x128.Idx)
    (hcol : (i 1).val = (y 1).val)
    (hX : ∀ k : Fin 128, X (ix2 (y 0) k) = x0 (ix2 (i 0) k))
    (hW : ∀ k j : Fin 128, W (ix2 k j) = val_main_v4 (F := Ideal) x3 (ix2 k j)) :
    k0_pay1 (F := Ideal) X W y = val_main_v5 (F := Ideal) x0 x3 i := by
  obtain ⟨r, j, rfl⟩ : ∃ (r : Fin 5000) (j : Fin 128), y = ix2 r j := ⟨y 0, y 1, eq_ix2 y⟩
  obtain ⟨n, j', rfl⟩ : ∃ (n : Fin 50000) (j' : Fin 128), i = ix2 n j' := ⟨i 0, i 1, eq_ix2 i⟩
  obtain rfl : j' = j := Fin.ext hcol
  rw [conv_apply, val_main_v5_apply]
  refine Finset.sum_congr rfl fun k _ => ?_
  have el : lidx_main_v5 (ix2 n j') k = ix2 n k := funext fun a => Fin.ext (by match a with | ⟨0, _⟩ => rfl | ⟨1, _⟩ => rfl)
  have er : ridx_main_v5 (ix2 n j') k = ix2 k j' := funext fun a => Fin.ext (by match a with | ⟨0, _⟩ => rfl | ⟨1, _⟩ => rfl)
  rw [el, er, hX k, hW k j']

/-! ## The index maps over the grid -/

theorem hz : (![0, 0] : Fin 2 → Nat) = fun _ => 0 := funext fun a => by fin_cases a <;> rfl

/-- Point `t` stages row block `t` of the features and of the output, and the one block of the weight. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every row block of the output is some point's. -/
theorem idx_onto : ∀ q : Fin 10, ∃ t : Fin cfg0.N, win0_2.index t = ![q.val, 0] :=
  (by decide +kernel : ∀ q : Fin 10, ∃ t : Fin grid0.N, win0_2.index t = ![q.val, 0])

/-! ## What a point writes back, the cover, the array -/

/-- Point `t` writes back block `t` of the whole product. -/
theorem flushed_eq (c : Dev nD) (t : Fin cfg0.N) :
    (dat0 (V1 m ρ) c).flushed 2 t = ((cfg0.win 2).blk t).view.read (Elt Ideal)
      (val_main_v5 (F := Ideal) (m ((c : Thread nD τ).loc main_arg0)) (m ((c : Thread nD τ).loc main_arg3))) := by
  show (cfg0.win 2).cut (grid0.coords t) ((dat0 (V1 m ρ) c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext y
  refine point _ _ _ _ y (((cfg0.win 2).blk t).view.emb y) ?_ (fun k => ?_) (fun k j => ?_)
  · show win0_2.index t (1 : Fin 2) * 128 + 1 * (y 1).val = (y 1).val
    omega
  · show V1 m ρ c main_arg0 (((cfg0.win 0).blk t).view.emb (ix2 (y 0) k)) = _
    rw [entry_x]
    refine congrArg _ (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · show V1 m ρ c main_v4 (((cfg0.win 1).blk t).view.emb (ix2 k j)) = _
    rw [entry_w]
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega

/-- An index of the output array is in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v5).slice (win0_2.rect t)).set ↔ _
  rw [View.set_slice_whole, Rect.mem_set_unit]
  exact Iff.rfl

/-- The ten row blocks cover the output array: row `n` is in block `n / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call its output array is the whole product of the features with the transposed weight. -/
theorem final (c : Dev nD) :
    (dat0 (V1 m ρ) c).arrAt 2 cfg0.N
      = val_main_v5 (F := Ideal) (m ((c : Thread nD τ).loc main_arg0)) (m ((c : Thread nD τ).loc main_arg3)) :=
  (dat0 (V1 m ρ) c).arrAt_eq_of_cover 2 _ (fun t _ => flushed_eq m ρ c t) cover

end Cert.KernelIdeal.ConvRegion

end
-- ==== Proof.HeadEntry.lean ====
/-
  What the second pallas_call finds in its nine input arrays.

  Between the two calls the host aggregates over the edges: degrees by a scatter-add over the destination nodes, their
  inverse square roots gathered per edge, the first call's output gathered per source node, scaled, scatter-added per
  destination node, and the self-loop term added. These are, operation for operation, the reference's own operations
  from its first matrix product on; so with the first call's output array equal to that product, the aggregated
  features the second call stages are the reference's aggregated features. The other eight inputs are the node
  features as launched, the three weights transposed exactly as the reference transposes them, and the four biases
  laid out as one row each.
-/
import proofs.«118099_j42210938585671_1_alg».proof.Proof.ConvRegion
import Idealize.ShloMosaic.Lib.ValueLayout

set_option maxRecDepth 16384

noncomputable section

namespace Cert.KernelIdeal.HeadEntry

open Cert.KernelIdeal Cert.KernelIdeal.Gen
open Idealize.ShloMosaic Idealize.ShloMosaic.TcCoe Idealize.ShloMosaic.ValueIdx Idealize.ShloMosaic.StableHlo Idealize.SL.Sem
open Idealize.ShloMosaic.Pipeline (Dat)
open Cert.ReferenceIdeal.Read (val_main_v1 val_main_v3 val_main_v5 val_main_v45 val_main_v51 val_main_v57 val_main_v63)

variable (m : (ℓ : Loc nD τ sig) → Buf (Elt Ideal) ℓ) (ρ : Dev nD → PrngReg)

/-! ## Buffers the first call leaves alone -/

/-- A launch argument that is no array of the first call still holds its launch contents after it. -/
theorem after_conv_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

/-- The node features are an input array of the first call: it leaves them as launched. -/
theorem after_conv_x (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (ConvRegion.entry_x m ρ c)

/-- The first call's output array is the reference's first matrix product. -/
theorem after_conv_h (c : Dev nD) :
    W2 m ρ c (Proc.devRef .tc main_v5)
      = val_main_v5 (F := Ideal) (m ((c : Thread nD τ).loc main_arg0)) (m ((c : Thread nD τ).loc main_arg3)) :=
  (W2_arr m ρ c 2).trans (ConvRegion.final m ρ c)

/-- The source nodes of the edges, as the host sliced them out before the first call. -/
theorem after_conv_src (c : Dev nD) :
    W2 m ρ c (Proc.devRef .tc main_v1) = val_main_v1 (F := Ideal) (m ((c : Thread nD τ).loc main_arg1)) :=
  (W2_of_ne m ρ c main_v1 (by decide)).trans (by
    dsimp only [W1, hostOps0]
    after_results
    rfl)

/-- The destination nodes of the edges. -/
theorem after_conv_dst (c : Dev nD) :
    W2 m ρ c (Proc.devRef .tc main_v3) = val_main_v3 (F := Ideal) (m ((c : Thread nD τ).loc main_arg1)) :=
  (W2_of_ne m ρ c main_v3 (by decide)).trans (by
    dsimp only [W1, hostOps0]
    after_results
    rfl)

/-! ## The nine entry arrays -/

/-- The aggregated features: the reference's. -/
theorem agg (c : Dev nD) :
    V3 m ρ c main_v45 = val_main_v45 (F := Ideal) (m ((c : Thread nD τ).loc main_arg0)) (m ((c : Thread nD τ).loc main_arg1))
      (m ((c : Thread nD τ).loc main_arg3)) := by
  dsimp only [V3, W3, hostOps1]
  after_results_simp
  rw [after_conv_h, after_conv_src, after_conv_dst]
  rfl

/-- The node features, as launched. -/
theorem x (c : Dev nD) : V3 m ρ c main_arg0 = m ((c : Thread nD τ).loc main_arg0) := by
  dsimp only [V3, W3, hostOps1]
  after_results_simp
  exact after_conv_x m ρ c

/-- The convolution's bias as one row. -/
theorem b₁ (c : Dev nD) (l : Fin 128) :
    V3 m ρ c main_v46 (ix2 (0 : Fin 1) l) = m ((c : Thread nD τ).loc main_arg4) (ix1 l) := by
  dsimp only [V3, W3, hostOps1]
  after_results_simp
  rw [after_conv_arg m ρ c main_arg4 (by decide) (by dsimp only [hostOps0]; after_results)]
  exact shapeCast_a_1a_apply _ _ _ _

/-- The first dense weight, transposed. -/
theorem w₁ (c : Dev nD) :
    (V3 m ρ c main_v47 : S128x32.Idx → EReal) = val_main_v51 (F := Ideal) (m ((c : Thread nD τ).loc main_arg5)) := by
  dsimp only [V3, W3, hostOps1]
  after_results_simp
  rw [after_conv_arg m ρ c main_arg5 (by decide) (by dsimp only [hostOps0]; after_results)]
  rfl

/-- The first dense bias as one row. -/
theorem b₂ (c : Dev nD) (k : Fin 32) :
    V3 m ρ c main_v48 (ix2 (0 : Fin 1) k) = m ((c : Thread nD τ).loc main_arg6) (ix1 k) := by
  dsimp only [V3, W3, hostOps1]
  after_results_simp
  rw [after_conv_arg m ρ c main_arg6 (by decide) (by dsimp only [hostOps0]; after_results)]
  exact shapeCast_a_1a_apply _ _ _ _

/-- The second dense weight, transposed. -/
theorem w₂ (c : Dev nD) :
    (V3 m ρ c main_v49 : S32x32.Idx → EReal) = val_main_v57 (F := Ideal) (m ((c : Thread nD τ).loc main_arg7)) := by
  dsimp only [V3, W3, hostOps1]
  after_results_simp
  rw [after_conv_arg m ρ c main_arg7 (by decide) (by dsimp only [hostOps0]; after_results)]
  rfl

/-- The second dense bias as one row. -/
theorem b₃ (c : Dev nD) (j : Fin 32) :
    V3 m ρ c main_v50 (ix2 (0 : Fin 1) j) = m ((c : Thread nD τ).loc main_arg8) (ix1 j) := by
  dsimp only [V3, W3, hostOps1]
  after_results_simp
  rw [after_conv_arg m ρ c main_arg8 (by decide) (by dsimp only [hostOps0]; after_results)]
  exact shapeCast_a_1a_apply _ _ _ _

/-- The concentration head's weight, transposed. -/
theorem w₃ (c : Dev nD) :
    (V3 m ρ c main_v51 : S32x1.Idx → EReal) = val_main_v63 (F := Ideal) (m ((c : Thread nD τ).loc main_arg9)) := by
  dsimp only [V3, W3, hostOps1]
  after_results_simp
  rw [after_conv_arg m ρ c main_arg9 (by decide) (by dsimp only [hostOps0]; after_results)]
  rfl

/-- The concentration head's bias as one row. -/
theorem b₄ (c : Dev nD) (j : Fin 1) :
    V3 m ρ c main_v52 (ix2 (0 : Fin 1) j) = m ((c : Thread nD τ).loc main_arg10) (ix1 j) := by
  dsimp only [V3, W3, hostOps1]
  after_results_simp
  rw [after_conv_arg m ρ c main_arg10 (by decide) (by dsimp only [hostOps0]; after_results)]
  exact shapeCast_a_1a_apply _ _ _ _

end Cert.KernelIdeal.HeadEntry

end
-- ==== Proof.HeadBlocks.lean ====
/-
  The second pallas_call's input blocks, read at an entry.

  At grid point `t` the two large inputs (the aggregated features, the node features) are staged by row block: the
  block's row `r` is the array's row 5000·t + r. The seven small inputs (three transposed weights, four bias rows) have
  one block, the whole array, at every point. Each block entry is therefore an entry of the array the call found at
  entry, which HeadEntry identifies with the reference's stage or with a launch argument.
-/
import proofs.«118099_j42210938585671_1_alg».proof.Proof.HeadEntry

set_option maxRecDepth 16384

noncomputable section

namespace Cert.KernelIdeal.HeadBlocks

open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.Read (val_main_v45 val_main_v51 val_main_v57 val_main_v63)

/-! ## The index maps over the grid -/

/-- The windows staged by row block move with the first output's window. -/
theorem idx_row0 : ∀ t : Fin cfg1.N, win1_0.index t (0 : Fin 2) = win1_9.index t (0 : Fin 2) ∧ win1_0.index t (1 : Fin 2) = 0 :=
  (by decide +kernel : ∀ t : Fin grid1.N, _)
theorem idx_row1 : ∀ t : Fin cfg1.N, win1_1.index t (0 : Fin 2) = win1_9.index t (0 : Fin 2) ∧ win1_1.index t (1 : Fin 2) = 0 :=
  (by decide +kernel : ∀ t : Fin grid1.N, _)
theorem idx_row10 : ∀ t : Fin cfg1.N, win1_10.index t (0 : Fin 2) = win1_9.index t (0 : Fin 2) ∧ win1_10.index t (1 : Fin 2) = 0 :=
  (by decide +kernel : ∀ t : Fin grid1.N, _)
/-- The small windows stay at their one block. -/
theorem idx_whole2 : ∀ t : Fin cfg1.N, win1_2.index t (0 : Fin 2) = 0 ∧ win1_2.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_whole5 : ∀ t : Fin cfg1.N, win1_5.index t (0 : Fin 2) = 0 ∧ win1_5.index t (1 : Fin 2) = 0 :=
  (by decide +kernel : ∀ t : Fin grid1.N, _)
theorem idx_whole6 : ∀ t : Fin cfg1.N, win1_6.index t (0 : Fin 2) = 0 ∧ win1_6.index t (1 : Fin 2) = 0 :=
  (by decide +kernel : ∀ t : Fin grid1.N, _)
theorem idx_whole7 : ∀ t : Fin cfg1.N, win1_7.index t (0 : Fin 2) = 0 ∧ win1_7.index t (1 : Fin 2) = 0 :=
  (by decide +kernel : ∀ t : Fin grid1.N, _)
theorem idx_whole8 : ∀ t : Fin cfg1.N, win1_8.index t (0 : Fin 2) = 0 ∧ win1_8.index t (1 : Fin 2) = 0 :=
  (by decide +kernel : ∀ t : Fin grid1.N, _)
/-- The first output's window stays in its one column block, and its row block is below ten. -/
theorem idx_out : ∀ t : Fin cfg1.N, win1_9.index t (1 : Fin 2) = 0 ∧ win1_9.index t (0 : Fin 2) ≤ 9 :=
  (by decide +kernel : ∀ t : Fin grid1.N, _)

/-- Every row block of the outputs is some point's. -/
theorem idx_onto : ∀ q : Fin 10, ∃ t : Fin cfg1.N, win1_9.index t = ![q.val, 0] ∧ win1_10.index t = ![q.val, 0] :=
  (by decide +kernel : ∀ q : Fin 10, ∃ t : Fin grid1.N, win1_9.index t = ![q.val, 0] ∧ win1_10.index t = ![q.val, 0])

/-! ## The blocks of ANY entry contents

The entry contents are a parameter `V` here: a block entry is an entry of the array `V` holds, whatever that is. -/

/-- Window 0, staged by row block. -/
theorem rows0 (V : (c : Dev nD) → (b : Ref sig .tc) → Buf (Elt Ideal) ((c : Thread nD τ).loc b)) (c : Dev nD) (t : Fin cfg1.N) (r : Fin 5000) (l : Fin 128) (n : Fin 50000)
    (hn : n.val = win1_9.index t (0 : Fin 2) * 5000 + r.val) :
    iblk1 V c 0 t (ix2 r l) = V c main_v45 (ix2 n l) := by
  obtain ⟨e0, e1⟩ := idx_row0 t
  show V c main_v45 (((cfg1.win 0).blk t).view.emb (ix2 r l)) = _
  refine congrArg _ (funext fun a => Fin.ext ?_)
  match a with
  | ⟨0, _⟩ => show win1_0.index t (0 : Fin 2) * 5000 + 1 * r.val = n.val; omega
  | ⟨1, _⟩ => show win1_0.index t (1 : Fin 2) * 128 + 1 * l.val = l.val; omega

/-- Window 1, staged by row block. -/
theorem rows1 (V : (c : Dev nD) → (b : Ref sig .tc) → Buf (Elt Ideal) ((c : Thread nD τ).loc b)) (c : Dev nD) (t : Fin cfg1.N) (r : Fin 5000) (l : Fin 128) (n : Fin 50000)
    (hn : n.val = win1_9.index t (0 : Fin 2) * 5000 + r.val) :
    iblk1 V c 1 t (ix2 r l) = V c main_arg0 (ix2 n l) := by
  obtain ⟨e0, e1⟩ := idx_row1 t
  show V c main_arg0 (((cfg1.win 1).blk t).view.emb (ix2 r l)) = _
  refine congrArg _ (funext fun a => Fin.ext ?_)
  match a with
  | ⟨0, _⟩ => show win1_1.index t (0 : Fin 2) * 5000 + 1 * r.val = n.val; omega
  | ⟨1, _⟩ => show win1_1.index t (1 : Fin 2) * 128 + 1 * l.val = l.val; omega

/-- Window 2: its one block is the array. -/
theorem whole2 (V : (c : Dev nD) → (b : Ref sig .tc) → Buf (Elt Ideal) ((c : Thread nD τ).loc b)) (c : Dev nD) (t : Fin cfg1.N) (p : Fin 1) (q : Fin 128) :
    iblk1 V c 2 t (ix2 p q) = V c main_v46 (ix2 p q) := by
  obtain ⟨e0, e1⟩ := idx_whole2 t
  show V c main_v46 (((cfg1.win 2).blk t).view.emb (ix2 p q)) = _
  refine congrArg _ (funext fun a => Fin.ext ?_)
  match a with
  | ⟨0, _⟩ => show win1_2.index t (0 : Fin 2) * 1 + 1 * p.val = p.val; omega
  | ⟨1, _⟩ => show win1_2.index t (1 : Fin 2) * 128 + 1 * q.val = q.val; omega

/-- Window 3: its one block is the array. -/
theorem whole3 (V : (c : Dev nD) → (b : Ref sig .tc) → Buf (Elt Ideal) ((c : Thread nD τ).loc b)) (c : Dev nD) (t : Fin cfg1.N) (p : Fin 128) (q : Fin 32) :
    iblk1 V c 3 t (ix2 p q) = V c main_v47 (ix2 p q) := by
  obtain ⟨e0, e1⟩ := idx_whole3 t
  show V c main_v47 (((cfg1.win 3).blk t).view.emb (ix2 p q)) = _
  refine congrArg _ (funext fun a => Fin.ext ?_)
  match a with
  | ⟨0, _⟩ => show win1_3.index t (0 : Fin 2) * 128 + 1 * p.val = p.val; omega
  | ⟨1, _⟩ => show win1_3.index t (1 : Fin 2) * 32 + 1 * q.val = q.val; omega

/-- Window 4: its one block is the array. -/
theorem whole4 (V : (c : Dev nD) → (b : Ref sig .tc) → Buf (Elt Ideal) ((c : Thread nD τ).loc b)) (c : Dev nD) (t : Fin cfg1.N) (p : Fin 1) (q : Fin 32) :
    iblk1 V c 4 t (ix2 p q) = V c main_v48 (ix2 p q) := by
  obtain ⟨e0, e1⟩ := idx_whole4 t
  show V c main_v48 (((cfg1.win 4).blk t).view.emb (ix2 p q)) = _
  refine congrArg _ (funext fun a => Fin.ext ?_)
  match a with
  | ⟨0, _⟩ => show win1_4.index t (0 : Fin 2) * 1 + 1 * p.val = p.val; omega
  | ⟨1, _⟩ => show win1_4.index t (1 : Fin 2) * 32 + 1 * q.val = q.val; omega

/-- Window 5: its one block is the array. -/
theorem whole5 (V : (c : Dev nD) → (b : Ref sig .tc) → Buf (Elt Ideal) ((c : Thread nD τ).loc b)) (c : Dev nD) (t : Fin cfg1.N) (p : Fin 32) (q : Fin 32) :
    iblk1 V c 5 t (ix2 p q) = V c main_v49 (ix2 p q) := by
  obtain ⟨e0, e1⟩ := idx_whole5 t
  show V c main_v49 (((cfg1.win 5).blk t).view.emb (ix2 p q)) = _
  refine congrArg _ (funext fun a => Fin.ext ?_)
  match a with
  | ⟨0, _⟩ => show win1_5.index t (0 : Fin 2) * 32 + 1 * p.val = p.val; omega
  | ⟨1, _⟩ => show win1_5.index t (1 : Fin 2) * 32 + 1 * q.val = q.val; omega

/-- Window 6: its one block is the array. -/
theorem whole6 (V : (c : Dev nD) → (b : Ref sig .tc) → Buf (Elt Ideal) ((c : Thread nD τ).loc b)) (c : Dev nD) (t : Fin cfg1.N) (p : Fin 1) (q : Fin 32) :
    iblk1 V c 6 t (ix2 p q) = V c main_v50 (ix2 p q) := by
  obtain ⟨e0, e1⟩ := idx_whole6 t
  show V c main_v50 (((cfg1.win 6).blk t).view.emb (ix2 p q)) = _
  refine congrArg _ (funext fun a => Fin.ext ?_)
  match a with
  | ⟨0, _⟩ => show win1_6.index t (0 : Fin 2) * 1 + 1 * p.val = p.val; omega
  | ⟨1, _⟩ => show win1_6.index t (1 : Fin 2) * 32 + 1 * q.val = q.val; omega

/-- Window 7: its one block is the array. -/
theorem whole7 (V : (c : Dev nD) → (b : Ref sig .tc) → Buf (Elt Ideal) ((c : Thread nD τ).loc b)) (c : Dev nD) (t : Fin cfg1.N) (p : Fin 32) (q : Fin 1) :
    iblk1 V c 7 t (ix2 p q) = V c main_v51 (ix2 p q) := by
  obtain ⟨e0, e1⟩ := idx_whole7 t
  show V c main_v51 (((cfg1.win 7).blk t).view.emb (ix2 p q)) = _
  refine congrArg _ (funext fun a => Fin.ext ?_)
  match a with
  | ⟨0, _⟩ => show win1_7.index t (0 : Fin 2) * 32 + 1 * p.val = p.val; omega
  | ⟨1, _⟩ => show win1_7.index t (1 : Fin 2) * 1 + 1 * q.val = q.val; omega

/-- Window 8: its one block is the array. -/
theorem whole8 (V : (c : Dev nD) → (b : Ref sig .tc) → Buf (Elt Ideal) ((c : Thread nD τ).loc b)) (c : Dev nD) (t : Fin cfg1.N) (p : Fin 1) (q : Fin 1) :
    iblk1 V c 8 t (ix2 p q) = V c main_v52 (ix2 p q) := by
  obtain ⟨e0, e1⟩ := idx_whole8 t
  show V c main_v52 (((cfg1.win 8).blk t).view.emb (ix2 p q)) = _
  refine congrArg _ (funext fun a => Fin.ext ?_)
  match a with
  | ⟨0, _⟩ => show win1_8.index t (0 : Fin 2) * 1 + 1 * p.val = p.val; omega
  | ⟨1, _⟩ => show win1_8.index t (1 : Fin 2) * 1 + 1 * q.val = q.val; omega

/-! ## What a point writes back, over the blocks -/

theorem hz : (![0, 0] : Fin 2 → Nat) = fun _ => 0 := funext fun a => by fin_cases a <;> rfl

/-- Point `t` writes back to the first output the body's first store, over the point's input blocks. -/
theorem stored_last (V : (c : Dev nD) → (b : Ref sig .tc) → Buf (Elt Ideal) ((c : Thread nD τ).loc b)) (c : Dev nD) (t : Fin cfg1.N) :
    (dat1 V c).flushed 9 t = k1_pay2 (F := Ideal) (iblk1 V c 0 t) (iblk1 V c 2 t) (iblk1 V c 1 t) (iblk1 V c 3 t)
      (iblk1 V c 4 t) (iblk1 V c 5 t) (iblk1 V c 6 t) := by
  show (cfg1.win 9).cut (grid1.coords t) ((dat1 V c).after 9 t) = _
  rw [after1_9]
  unfold out1_9
  rw [View.canon_unit_zero hz]
  simp only [View.ld_unit_zero (S := S5000x128) hz, View.ld_unit_zero (S := S1x128) hz, View.ld_unit_zero (S := S128x32) hz, View.ld_unit_zero (S := S1x32) hz, View.ld_unit_zero (S := S32x32) hz, View.ld_unit_zero (S := S32x1) hz, View.ld_unit_zero (S := S1x1) hz]
  rfl

/-- Point `t` writes back to the second output the body's second store, over the point's input blocks. -/
theorem stored_conc (V : (c : Dev nD) → (b : Ref sig .tc) → Buf (Elt Ideal) ((c : Thread nD τ).loc b)) (c : Dev nD) (t : Fin cfg1.N) :
    (dat1 V c).flushed 10 t = k1_pay1 (F := Ideal) (k1_pay3 (iblk1 V c 0 t) (iblk1 V c 2 t) (iblk1 V c 1 t) (iblk1 V c 3 t)
      (iblk1 V c 4 t) (iblk1 V c 5 t) (iblk1 V c 6 t)) (k1_pay4 (iblk1 V c 7 t)) (iblk1 V c 8 t) := by
  show (cfg1.win 10).cut (grid1.coords t) ((dat1 V c).after 10 t) = _
  rw [after1_10]
  unfold out1_10
  rw [View.canon_unit_zero hz]
  simp only [View.ld_unit_zero (S := S5000x128) hz, View.ld_unit_zero (S := S1x128) hz, View.ld_unit_zero (S := S128x32) hz, View.ld_unit_zero (S := S1x32) hz, View.ld_unit_zero (S := S32x32) hz, View.ld_unit_zero (S := S32x1) hz, View.ld_unit_zero (S := S1x1) hz]
  rfl

variable (m : (ℓ : Loc nD τ sig) → Buf (Elt Ideal) ℓ) (ρ : Dev nD → PrngReg)

/-! ## The blocks of what the call finds -/

/-- Row `r` of the aggregated-features block is row `n` of the reference's aggregated features. -/
theorem agg (c : Dev nD) (t : Fin cfg1.N) (r : Fin 5000) (l : Fin 128) (n : Fin 50000)
    (hn : n.val = win1_9.index t (0 : Fin 2) * 5000 + r.val) :
    iblk1 (V3 m ρ) c 0 t (ix2 r l) = val_main_v45 (F := Ideal) (m ((c : Thread nD τ).loc main_arg0)) (m ((c : Thread nD τ).loc main_arg1)) (m ((c : Thread nD τ).loc main_arg3)) (ix2 n l) :=
  (rows0 (V3 m ρ) c t r l n hn).trans (congrFun (HeadEntry.agg m ρ c) _)

/-- Row `r` of the node-features block is row `n` of the node features. -/
theorem x (c : Dev nD) (t : Fin cfg1.N) (r : Fin 5000) (l : Fin 128) (n : Fin 50000)
    (hn : n.val = win1_9.index t (0 : Fin 2) * 5000 + r.val) :
    iblk1 (V3 m ρ) c 1 t (ix2 r l) = m ((c : Thread nD τ).loc main_arg0) (ix2 n l) :=
  (rows1 (V3 m ρ) c t r l n hn).trans (congrFun (HeadEntry.x m ρ c) _)

/-- The convolution's bias row. -/
theorem b₁ (c : Dev nD) (t : Fin cfg1.N) (q : Fin 128) :
    iblk1 (V3 m ρ) c 2 t (ix2 (0 : Fin 1) q) = m ((c : Thread nD τ).loc main_arg4) (ix1 q) :=
  (whole2 (V3 m ρ) c t (0 : Fin 1) q).trans (HeadEntry.b₁ m ρ c q)

/-- The first dense weight, transposed. -/
theorem w₁ (c : Dev nD) (t : Fin cfg1.N) (p : Fin 128) (q : Fin 32) :
    iblk1 (V3 m ρ) c 3 t (ix2 p q) = val_main_v51 (F := Ideal) (m ((c : Thread nD τ).loc main_arg5)) (ix2 p q) :=
  (whole3 (V3 m ρ) c t p q).trans (congrFun (HeadEntry.w₁ m ρ c) _)

/-- The first dense bias row. -/
theorem b₂ (c : Dev nD) (t : Fin cfg1.N) (q : Fin 32) :
    iblk1 (V3 m ρ) c 4 t (ix2 (0 : Fin 1) q) = m ((c : Thread nD τ).loc main_arg6) (ix1 q) :=
  (whole4 (V3 m ρ) c t (0 : Fin 1) q).trans (HeadEntry.b₂ m ρ c q)

/-- The second dense weight, transposed. -/
theorem w₂ (c : Dev nD) (t : Fin cfg1.N) (p : Fin 32) (q : Fin 32) :
    iblk1 (V3 m ρ) c 5 t (ix2 p q) = val_main_v57 (F := Ideal) (m ((c : Thread nD τ).loc main_arg7)) (ix2 p q) :=
  (whole5 (V3 m ρ) c t p q).trans (congrFun (HeadEntry.w₂ m ρ c) _)

/-- The second dense bias row. -/
theorem b₃ (c : Dev nD) (t : Fin cfg1.N) (q : Fin 32) :
    iblk1 (V3 m ρ) c 6 t (ix2 (0 : Fin 1) q) = m ((c : Thread nD τ).loc main_arg8) (ix1 q) :=
  (whole6 (V3 m ρ) c t (0 : Fin 1) q).trans (HeadEntry.b₃ m ρ c q)

/-- The concentration head's weight, transposed. -/
theorem w₃ (c : Dev nD) (t : Fin cfg1.N) (p : Fin 32) (q : Fin 1) :
    iblk1 (V3 m ρ) c 7 t (ix2 p q) = val_main_v63 (F := Ideal) (m ((c : Thread nD τ).loc main_arg9)) (ix2 p q) :=
  (whole7 (V3 m ρ) c t p q).trans (congrFun (HeadEntry.w₃ m ρ c) _)

/-- The concentration head's bias row. -/
theorem b₄ (c : Dev nD) (t : Fin cfg1.N) (q : Fin 1) :
    iblk1 (V3 m ρ) c 8 t (ix2 (0 : Fin 1) q) = m ((c : Thread nD τ).loc main_arg10) (ix1 q) :=
  (whole8 (V3 m ρ) c t (0 : Fin 1) q).trans (HeadEntry.b₄ m ρ c q)

end Cert.KernelIdeal.HeadBlocks

end
-- ==== Proof.RefRows.lean ====
/-
  The reference's dense layers, read one node at a time.

  The reference applies the same layers to whole arrays: a bias of shape [n] is first laid out as [1, n] and then
  broadcast over the 50000 rows, the rectifier is a maximum with a broadcast zero, and a layer's product is a
  `dot_general` contracting the features with a transposed weight. Read at entry (n, j) each stage depends on row `n`
  of the stage before it only, and the composition is `RowSpec.last` and `RowSpec.conc` of row `n` of the aggregated
  features and of the input features.
-/
import proofs.«118099_j42210938585671_1_alg».proof.Proof.Gen.ReferenceIdeal.Read
import proofs.«118099_j42210938585671_1_alg».proof.Proof.RowSpec
import Idealize.ShloMosaic.Lib.ValueIdx
import Idealize.ShloMosaic.PureOps.Ideal.Laws

noncomputable section

namespace Cert.ReferenceIdeal.Rows

open Cert.ReferenceIdeal Cert.ReferenceIdeal.Read Cert.RowSpec
open Idealize.ShloMosaic Idealize.ShloMosaic.ValueIdx

/-! ## The stages' index maps at (n, j) -/

theorem i47 (n : Fin 50000) (l : Fin 128) : idx_main_v47 (ix2 n l) = ix2 (0 : Fin 1) l :=
  funext fun a => Fin.ext (by match a with | ⟨0, _⟩ => rfl | ⟨1, _⟩ => rfl)

theorem i46 (u : Fin 1) (l : Fin 128) : idx_main_v46 (ix2 u l) = ix1 l :=
  funext fun a => Fin.ext (by match a with | ⟨0, _⟩ => rfl)

theorem i54 (n : Fin 50000) (l : Fin 32) : idx_main_v54 (ix2 n l) = ix2 (0 : Fin 1) l :=
  funext fun a => Fin.ext (by match a with | ⟨0, _⟩ => rfl | ⟨1, _⟩ => rfl)

theorem i53 (u : Fin 1) (l : Fin 32) : idx_main_v53 (ix2 u l) = ix1 l :=
  funext fun a => Fin.ext (by match a with | ⟨0, _⟩ => rfl)

theorem i60 (n : Fin 50000) (l : Fin 32) : idx_main_v60 (ix2 n l) = ix2 (0 : Fin 1) l :=
  funext fun a => Fin.ext (by match a with | ⟨0, _⟩ => rfl | ⟨1, _⟩ => rfl)

theorem i59 (u : Fin 1) (l : Fin 32) : idx_main_v59 (ix2 u l) = ix1 l :=
  funext fun a => Fin.ext (by match a with | ⟨0, _⟩ => rfl)

theorem i66 (n : Fin 50000) (l : Fin 1) : idx_main_v66 (ix2 n l) = ix2 (0 : Fin 1) l :=
  funext fun a => Fin.ext (by
    have hl := l.isLt
    match a with
    | ⟨0, _⟩ => rfl
    | ⟨1, _⟩ => show 0 = l.val; omega)

theorem i65 (u l : Fin 1) : idx_main_v65 (ix2 u l) = ix1 l :=
  funext fun a => Fin.ext (by
    have hl := l.isLt
    match a with
    | ⟨0, _⟩ => show 0 = l.val; omega)

theorem l52 (n : Fin 50000) (j : Fin 32) (k : Fin 128) : lidx_main_v52 (ix2 n j) k = ix2 n k :=
  funext fun a => Fin.ext (by match a with | ⟨0, _⟩ => rfl | ⟨1, _⟩ => rfl)

theorem r52 (n : Fin 50000) (j : Fin 32) (k : Fin 128) : ridx_main_v52 (ix2 n j) k = ix2 k j :=
  funext fun a => Fin.ext (by match a with | ⟨0, _⟩ => rfl | ⟨1, _⟩ => rfl)

theorem l58 (n : Fin 50000) (j : Fin 32) (k : Fin 32) : lidx_main_v58 (ix2 n j) k = ix2 n k :=
  funext fun a => Fin.ext (by match a with | ⟨0, _⟩ => rfl | ⟨1, _⟩ => rfl)

theorem r58 (n : Fin 50000) (j : Fin 32) (k : Fin 32) : ridx_main_v58 (ix2 n j) k = ix2 k j :=
  funext fun a => Fin.ext (by match a with | ⟨0, _⟩ => rfl | ⟨1, _⟩ => rfl)

theorem l64 (n : Fin 50000) (j : Fin 1) (k : Fin 32) : lidx_main_v64 (ix2 n j) k = ix2 n k :=
  funext fun a => Fin.ext (by match a with | ⟨0, _⟩ => rfl | ⟨1, _⟩ => rfl)

theorem r64 (n : Fin 50000) (j : Fin 1) (k : Fin 32) : ridx_main_v64 (ix2 n j) k = ix2 k j :=
  funext fun a => Fin.ext (by match a with | ⟨0, _⟩ => rfl | ⟨1, _⟩ => rfl)

/-! ## The stages at (n, j) -/

variable (x0 : (⟨S50000x128, .f32⟩ : BufTy).Contents (Elt Ideal)) (x1 : (⟨S2x640000, .i32⟩ : BufTy).Contents (Elt Ideal))
  (x3 : (⟨S128x128, .f32⟩ : BufTy).Contents (Elt Ideal)) (x4 : (⟨S128, .f32⟩ : BufTy).Contents (Elt Ideal))
  (x5 : (⟨S32x128, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x9 : (⟨S1x32, .f32⟩ : BufTy).Contents (Elt Ideal)) (x10 : (⟨S1, .f32⟩ : BufTy).Contents (Elt Ideal))

/-- The reference's last hidden array at (n, j) is the last hidden row of node `n`. -/
theorem last_apply (n : Fin 50000) (j : Fin 32) :
    val_main_v62 (F := Ideal) x0 x1 x3 x4 x5 x6 x7 x8 (ix2 n j)
      = last (fun l => val_main_v45 (F := Ideal) x0 x1 x3 (ix2 n l)) (fun l => x0 (ix2 n l)) (fun l => x4 (ix1 l))
          (fun l k => val_main_v51 (F := Ideal) x5 (ix2 l k)) (fun k => x6 (ix1 k))
          (fun k j => val_main_v57 (F := Ideal) x7 (ix2 k j)) (fun j => x8 (ix1 j)) j := by
  unfold last dense resid relu
  simp only [val_main_v62_apply, val_main_v61_apply, val_main_v60_apply, val_main_v59_apply, val_main_v58_apply,
    val_main_v56_apply, val_main_v55_apply, val_main_v54_apply, val_main_v53_apply, val_main_v52_apply,
    val_main_v50_apply, val_main_v49_apply, val_main_v48_apply, val_main_v47_apply, val_main_v46_apply,
    val_main_call0_v0_apply, val_main_call0_cst_apply, val_main_call1_v0_apply, val_main_call1_cst_apply,
    val_main_call2_v0_apply, val_main_call2_cst_apply,
    i47, i46, i54, i53, i60, i59, l52, r52, l58, r58,
    Ideal.addf_def, Ideal.maximumf_def, Ideal.ofBits_def, Ideal.ofBits_zero_f32]

/-- The reference's first result at (n, j) is the concentration of node `n`. -/
theorem conc_apply (n : Fin 50000) (j : Fin 1) :
    val_main_v67 (F := Ideal) x0 x1 x3 x4 x5 x6 x7 x8 x9 x10 (ix2 n j)
      = conc (fun k => val_main_v62 (F := Ideal) x0 x1 x3 x4 x5 x6 x7 x8 (ix2 n k))
          (fun k j => val_main_v63 (F := Ideal) x9 (ix2 k j)) (fun j => x10 (ix1 j)) j := by
  unfold conc dense
  simp only [val_main_v67_apply, val_main_v66_apply, val_main_v65_apply, val_main_v64_apply, i66, i65, l64, r64,
    Ideal.addf_def]

end Cert.ReferenceIdeal.Rows

end
-- ==== Proof.HeadRegion.lean ====
/-
  The second pallas_call: what its two output arrays hold after the run.

  Point `t` of its ten stages rows 5000·t … 5000·t + 4999 of the aggregated features and of the node features, and
  the whole of the seven small arrays (three transposed weights, four bias rows); it writes the block's last hidden
  rows and concentrations to the same rows of the two outputs. Every layer acts on a node's row by itself
  (`RowSpec`), so entry (r, j) of what point `t` stores is entry (5000·t + r, j) of the reference's whole-array
  stage; the ten blocks cover each output. After the call the first output is the reference's last hidden array and
  the second its first result.
-/
import proofs.«118099_j42210938585671_1_alg».proof.Proof.HeadBlocks
import proofs.«118099_j42210938585671_1_alg».proof.Proof.RefRows

set_option maxRecDepth 16384

noncomputable section

namespace Cert.KernelIdeal.HeadRegion

open Cert.KernelIdeal Cert.KernelIdeal.Gen Cert.RowSpec
open Idealize.ShloMosaic Idealize.ShloMosaic.TcCoe Idealize.ShloMosaic.ValueIdx Idealize.SL.Sem
open Idealize.ShloMosaic.Pipeline (Dat)
open Cert.ReferenceIdeal.Read (val_main_v45 val_main_v51 val_main_v57 val_main_v62 val_main_v63 val_main_v67)

/-! ## One row -/

/-- The body's last hidden row at row `r` of its blocks is the reference's at node `n`, when the blocks' rows `r` are
    the arrays' rows `n` and the small arrays are the reference's. -/
theorem row_last (X0 X1 : Vec Ideal S5000x128 .f32) (X2 : Vec Ideal S1x128 .f32) (X3 : Vec Ideal S128x32 .f32) (X4 : Vec Ideal S1x32 .f32)
    (X5 : Vec Ideal S32x32 .f32) (X6 : Vec Ideal S1x32 .f32)
    (x0 : S50000x128.Idx → EReal) (x1 : S2x640000.Idx → BitVec 32) (x3 : S128x128.Idx → EReal) (x4 : S128.Idx → EReal)
    (x5 : S32x128.Idx → EReal) (x6 : S32.Idx → EReal) (x7 : S32x32.Idx → EReal) (x8 : S32.Idx → EReal)
    (r : Fin 5000) (n : Fin 50000) (j : Fin 32)
    (h0 : ∀ l : Fin 128, X0 (ix2 r l) = val_main_v45 (F := Ideal) x0 x1 x3 (ix2 n l))
    (h1 : ∀ l : Fin 128, X1 (ix2 r l) = x0 (ix2 n l))
    (h2 : ∀ l : Fin 128, X2 (ix2 (0 : Fin 1) l) = x4 (ix1 l))
    (h3 : ∀ (l : Fin 128) (k : Fin 32), X3 (ix2 l k) = val_main_v51 (F := Ideal) x5 (ix2 l k))
    (h4 : ∀ k : Fin 32, X4 (ix2 (0 : Fin 1) k) = x6 (ix1 k))
    (h5 : ∀ k j : Fin 32, X5 (ix2 k j) = val_main_v57 (F := Ideal) x7 (ix2 k j))
    (h6 : ∀ j : Fin 32, X6 (ix2 (0 : Fin 1) j) = x8 (ix1 j)) :
    k1_pay2 (F := Ideal) X0 X2 X1 X3 X4 X5 X6 (ix2 r j) = val_main_v62 (F := Ideal) x0 x1 x3 x4 x5 x6 x7 x8 (ix2 n j) := by
  rw [Payloads.last_apply, Cert.ReferenceIdeal.Rows.last_apply]
  have e0 : (fun l => X0 (ix2 r l)) = fun l => val_main_v45 (F := Ideal) x0 x1 x3 (ix2 n l) := funext h0
  have e1 : (fun l => X1 (ix2 r l)) = fun l => x0 (ix2 n l) := funext h1
  have e2 : (fun l => X2 (ix2 (0 : Fin 1) l)) = fun l => x4 (ix1 l) := funext h2
  have e3 : (fun l k => X3 (ix2 l k)) = fun l k => val_main_v51 (F := Ideal) x5 (ix2 l k) := funext fun l => funext (h3 l)
  have e4 : (fun k => X4 (ix2 (0 : Fin 1) k)) = fun k => x6 (ix1 k) := funext h4
  have e5 : (fun k j => X5 (ix2 k j)) = fun k j => val_main_v57 (F := Ideal) x7 (ix2 k j) := funext fun k => funext (h5 k)
  have e6 : (fun j => X6 (ix2 (0 : Fin 1) j)) = fun j => x8 (ix1 j) := funext h6
  rw [e0, e1, e2, e3, e4, e5, e6]

/-- The same for the concentration. -/
theorem row_conc (X0 X1 : Vec Ideal S5000x128 .f32) (X2 : Vec Ideal S1x128 .f32) (X3 : Vec Ideal S128x32 .f32) (X4 : Vec Ideal S1x32 .f32)
    (X5 : Vec Ideal S32x32 .f32) (X6 : Vec Ideal S1x32 .f32)
    (X7 : Vec Ideal S32x1 .f32) (X8 : Vec Ideal S1x1 .f32)
    (x0 : S50000x128.Idx → EReal) (x1 : S2x640000.Idx → BitVec 32) (x3 : S128x128.Idx → EReal) (x4 : S128.Idx → EReal)
    (x5 : S32x128.Idx → EReal) (x6 : S32.Idx → EReal) (x7 : S32x32.Idx → EReal) (x8 : S32.Idx → EReal)
    (x9 : S1x32.Idx → EReal) (x10 : S1.Idx → EReal)
    (r : Fin 5000) (n : Fin 50000) (j : Fin 1)
    (h0 : ∀ l : Fin 128, X0 (ix2 r l) = val_main_v45 (F := Ideal) x0 x1 x3 (ix2 n l))
    (h1 : ∀ l : Fin 128, X1 (ix2 r l) = x0 (ix2 n l))
    (h2 : ∀ l : Fin 128, X2 (ix2 (0 : Fin 1) l) = x4 (ix1 l))
    (h3 : ∀ (l : Fin 128) (k : Fin 32), X3 (ix2 l k) = val_main_v51 (F := Ideal) x5 (ix2 l k))
    (h4 : ∀ k : Fin 32, X4 (ix2 (0 : Fin 1) k) = x6 (ix1 k))
    (h5 : ∀ k j : Fin 32, X5 (ix2 k j) = val_main_v57 (F := Ideal) x7 (ix2 k j))
    (h6 : ∀ j : Fin 32, X6 (ix2 (0 : Fin 1) j) = x8 (ix1 j))
    (h7 : ∀ (k : Fin 32) (j : Fin 1), X7 (ix2 k j) = val_main_v63 (F := Ideal) x9 (ix2 k j))
    (h8 : ∀ j : Fin 1, X8 (ix2 (0 : Fin 1) j) = x10 (ix1 j)) :
    k1_pay1 (F := Ideal) (k1_pay3 X0 X2 X1 X3 X4 X5 X6) (k1_pay4 X7) X8 (ix2 r j)
      = val_main_v67 (F := Ideal) x0 x1 x3 x4 x5 x6 x7 x8 x9 x10 (ix2 n j) := by
  rw [Payloads.conc_apply, Cert.ReferenceIdeal.Rows.conc_apply]
  have e : (fun k => k1_pay2 (F := Ideal) X0 X2 X1 X3 X4 X5 X6 (ix2 r k))
      = fun k => val_main_v62 (F := Ideal) x0 x1 x3 x4 x5 x6 x7 x8 (ix2 n k) :=
    funext fun k => row_last X0 X1 X2 X3 X4 X5 X6 x0 x1 x3 x4 x5 x6 x7 x8 r n k h0 h1 h2 h3 h4 h5 h6
  have e7 : (fun k j => X7 (ix2 k j)) = fun k j => val_main_v63 (F := Ideal) x9 (ix2 k j) := funext fun k => funext (h7 k)
  have e8 : (fun j => X8 (ix2 (0 : Fin 1) j)) = fun j => x10 (ix1 j) := funext h8
  rw [e, e7, e8]

/-! ## One point, at an index of the block and the index of the array it lands on -/

theorem point_last (X0 X1 : Vec Ideal S5000x128 .f32) (X2 : Vec Ideal S1x128 .f32) (X3 : Vec Ideal S128x32 .f32) (X4 : Vec Ideal S1x32 .f32)
    (X5 : Vec Ideal S32x32 .f32) (X6 : Vec Ideal S1x32 .f32)
    (x0 : S50000x128.Idx → EReal) (x1 : S2x640000.Idx → BitVec 32) (x3 : S128x128.Idx → EReal) (x4 : S128.Idx → EReal)
    (x5 : S32x128.Idx → EReal) (x6 : S32.Idx → EReal) (x7 : S32x32.Idx → EReal) (x8 : S32.Idx → EReal)
    (y : S5000x32.Idx) (i : S50000x32.Idx) (hcol : (i 1).val = (y 1).val)
    (h0 : ∀ l : Fin 128, X0 (ix2 (y 0) l) = val_main_v45 (F := Ideal) x0 x1 x3 (ix2 (i 0) l))
    (h1 : ∀ l : Fin 128, X1 (ix2 (y 0) l) = x0 (ix2 (i 0) l))
    (h2 : ∀ l : Fin 128, X2 (ix2 (0 : Fin 1) l) = x4 (ix1 l))
    (h3 : ∀ (l : Fin 128) (k : Fin 32), X3 (ix2 l k) = val_main_v51 (F := Ideal) x5 (ix2 l k))
    (h4 : ∀ k : Fin 32, X4 (ix2 (0 : Fin 1) k) = x6 (ix1 k))
    (h5 : ∀ k j : Fin 32, X5 (ix2 k j) = val_main_v57 (F := Ideal) x7 (ix2 k j))
    (h6 : ∀ j : Fin 32, X6 (ix2 (0 : Fin 1) j) = x8 (ix1 j)) :
    k1_pay2 (F := Ideal) X0 X2 X1 X3 X4 X5 X6 y = val_main_v62 (F := Ideal) x0 x1 x3 x4 x5 x6 x7 x8 i := by
  obtain ⟨r, j, rfl⟩ : ∃ (r : Fin 5000) (j : Fin 32), y = ix2 r j := ⟨y 0, y 1, eq_ix2 y⟩
  obtain ⟨n, j', rfl⟩ : ∃ (n : Fin 50000) (j' : Fin 32), i = ix2 n j' := ⟨i 0, i 1, eq_ix2 i⟩
  obtain rfl : j' = j := Fin.ext hcol
  exact row_last X0 X1 X2 X3 X4 X5 X6 x0 x1 x3 x4 x5 x6 x7 x8 r n j' h0 h1 h2 h3 h4 h5 h6

theorem point_conc (X0 X1 : Vec Ideal S5000x128 .f32) (X2 : Vec Ideal S1x128 .f32) (X3 : Vec Ideal S128x32 .f32) (X4 : Vec Ideal S1x32 .f32)
    (X5 : Vec Ideal S32x32 .f32) (X6 : Vec Ideal S1x32 .f32)
    (X7 : Vec Ideal S32x1 .f32) (X8 : Vec Ideal S1x1 .f32)
    (x0 : S50000x128.Idx → EReal) (x1 : S2x640000.Idx → BitVec 32) (x3 : S128x128.Idx → EReal) (x4 : S128.Idx → EReal)
    (x5 : S32x128.Idx → EReal) (x6 : S32.Idx → EReal) (x7 : S32x32.Idx → EReal) (x8 : S32.Idx → EReal)
    (x9 : S1x32.Idx → EReal) (x10 : S1.Idx → EReal)
    (y : S5000x1.Idx) (i : S50000x1.Idx) (hcol : (i 1).val = (y 1).val)
    (h0 : ∀ l : Fin 128, X0 (ix2 (y 0) l) = val_main_v45 (F := Ideal) x0 x1 x3 (ix2 (i 0) l))
    (h1 : ∀ l : Fin 128, X1 (ix2 (y 0) l) = x0 (ix2 (i 0) l))
    (h2 : ∀ l : Fin 128, X2 (ix2 (0 : Fin 1) l) = x4 (ix1 l))
    (h3 : ∀ (l : Fin 128) (k : Fin 32), X3 (ix2 l k) = val_main_v51 (F := Ideal) x5 (ix2 l k))
    (h4 : ∀ k : Fin 32, X4 (ix2 (0 : Fin 1) k) = x6 (ix1 k))
    (h5 : ∀ k j : Fin 32, X5 (ix2 k j) = val_main_v57 (F := Ideal) x7 (ix2 k j))
    (h6 : ∀ j : Fin 32, X6 (ix2 (0 : Fin 1) j) = x8 (ix1 j))
    (h7 : ∀ (k : Fin 32) (j : Fin 1), X7 (ix2 k j) = val_main_v63 (F := Ideal) x9 (ix2 k j))
    (h8 : ∀ j : Fin 1, X8 (ix2 (0 : Fin 1) j) = x10 (ix1 j)) :
    k1_pay1 (F := Ideal) (k1_pay3 X0 X2 X1 X3 X4 X5 X6) (k1_pay4 X7) X8 y
      = val_main_v67 (F := Ideal) x0 x1 x3 x4 x5 x6 x7 x8 x9 x10 i := by
  obtain ⟨r, j, rfl⟩ : ∃ (r : Fin 5000) (j : Fin 1), y = ix2 r j := ⟨y 0, y 1, eq_ix2 y⟩
  obtain ⟨n, j', rfl⟩ : ∃ (n : Fin 50000) (j' : Fin 1), i = ix2 n j' := ⟨i 0, i 1, eq_ix2 i⟩
  obtain rfl : j' = j := Fin.ext hcol
  exact row_conc X0 X1 X2 X3 X4 X5 X6 X7 X8 x0 x1 x3 x4 x5 x6 x7 x8 x9 x10 r n j' h0 h1 h2 h3 h4 h5 h6 h7 h8

/-! ## What a point writes back -/

variable (m : (ℓ : Loc nD τ sig) → Buf (Elt Ideal) ℓ) (ρ : Dev nD → PrngReg)

/-- Point `t` writes back block `t` of the reference's last hidden array. -/
theorem flushed_last (c : Dev nD) (t : Fin cfg1.N) :
    (dat1 (V3 m ρ) c).flushed 9 t = ((cfg1.win 9).blk t).view.read (Elt Ideal)
      (val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (HeadBlocks.stored_last (V3 m ρ) c t).trans (funext fun y => ?_)
  have hrow : ((((cfg1.win 9).blk t).view.emb y) 0).val = win1_9.index t (0 : Fin 2) * 5000 + (y 0).val := by
    show win1_9.index t (0 : Fin 2) * 5000 + 1 * (y 0).val = _
    rw [Nat.one_mul]
  have hcol : ((((cfg1.win 9).blk t).view.emb y) 1).val = (y 1).val := by
    show win1_9.index t (1 : Fin 2) * 32 + 1 * (y 1).val = _
    rw [(HeadBlocks.idx_out t).1, Nat.zero_mul, Nat.zero_add, Nat.one_mul]
  exact point_last _ _ _ _ _ _ _ _ _ _ _ _ _ _ _ y (((cfg1.win 9).blk t).view.emb y) hcol
    (fun l => HeadBlocks.agg m ρ c t (y 0) l _ hrow) (fun l => HeadBlocks.x m ρ c t (y 0) l _ hrow)
    (fun l => HeadBlocks.b₁ m ρ c t l) (fun l k => HeadBlocks.w₁ m ρ c t l k) (fun k => HeadBlocks.b₂ m ρ c t k)
    (fun k j => HeadBlocks.w₂ m ρ c t k j) (fun j => HeadBlocks.b₃ m ρ c t j)

/-- Point `t` writes back block `t` of the reference's first result. -/
theorem flushed_conc (c : Dev nD) (t : Fin cfg1.N) :
    (dat1 (V3 m ρ) c).flushed 10 t = ((cfg1.win 10).blk t).view.read (Elt Ideal)
      (val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (HeadBlocks.stored_conc (V3 m ρ) c t).trans (funext fun y => ?_)
  have hrow : ((((cfg1.win 10).blk t).view.emb y) 0).val = win1_9.index t (0 : Fin 2) * 5000 + (y 0).val := by
    show win1_10.index t (0 : Fin 2) * 5000 + 1 * (y 0).val = _
    rw [(HeadBlocks.idx_row10 t).1, Nat.one_mul]
  have hcol : ((((cfg1.win 10).blk t).view.emb y) 1).val = (y 1).val := by
    show win1_10.index t (1 : Fin 2) * 1 + 1 * (y 1).val = _
    rw [(HeadBlocks.idx_row10 t).2, Nat.zero_mul, Nat.zero_add, Nat.one_mul]
  exact point_conc _ _ _ _ _ _ _ _ _ _ _ _ _ _ _ _ _ _ _ y (((cfg1.win 10).blk t).view.emb y) hcol
    (fun l => HeadBlocks.agg m ρ c t (y 0) l _ hrow) (fun l => HeadBlocks.x m ρ c t (y 0) l _ hrow)
    (fun l => HeadBlocks.b₁ m ρ c t l) (fun l k => HeadBlocks.w₁ m ρ c t l k) (fun k => HeadBlocks.b₂ m ρ c t k)
    (fun k j => HeadBlocks.w₂ m ρ c t k j) (fun j => HeadBlocks.b₃ m ρ c t j)
    (fun k j => HeadBlocks.w₃ m ρ c t k j) (fun j => HeadBlocks.b₄ m ρ c t j)

/-! ## The covers and the arrays -/

theorem mem_blk_last (t : Fin cfg1.N) (i : S50000x32.Idx) :
    i ∈ ((cfg1.win 9).blk t).view.set ↔ ∀ a : Fin 2, win1_9.index t a * S5000x32.size a ≤ (i a).val ∧ (i a).val < win1_9.index t a * S5000x32.size a + S5000x32.size a := by
  show i ∈ ((View.whole main_v53_0).slice (win1_9.rect t)).set ↔ _
  rw [View.set_slice_whole, Rect.mem_set_unit]
  exact Iff.rfl

theorem mem_blk_conc (t : Fin cfg1.N) (i : S50000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v53_1).slice (win1_10.rect t)).set ↔ _
  rw [View.set_slice_whole, Rect.mem_set_unit]
  exact Iff.rfl

/-- The ten row blocks cover the first output: node `n` is in block `n / 5000`. -/
theorem cover_last (i : S50000x32.Idx) : ∃ t : Fin cfg1.N, (cfg1.win 9).flush t = true ∧ i ∈ ((cfg1.win 9).blk t).view.set := by
  have hi0 : (i 0).val < 50000 := (i 0).isLt
  have hi1 : (i 1).val < 32 := (i 1).isLt
  obtain ⟨t, ht, -⟩ := HeadBlocks.idx_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [mem_blk_last]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 32 ≤ (i 1).val ∧ (i 1).val < win1_9.index t (1 : Fin 2) * 32 + 32; omega

/-- And the second. -/
theorem cover_conc (i : S50000x1.Idx) : ∃ t : Fin cfg1.N, (cfg1.win 10).flush t = true ∧ i ∈ ((cfg1.win 10).blk t).view.set := by
  have hi0 : (i 0).val < 50000 := (i 0).isLt
  have hi1 : (i 1).val < 1 := (i 1).isLt
  obtain ⟨t, -, ht⟩ := HeadBlocks.idx_onto ⟨(i 0).val / 5000, by omega⟩
  have q0 : win1_10.index t (0 : Fin 2) = (i 0).val / 5000 := congrFun ht 0
  have q1 : win1_10.index t (1 : Fin 2) = 0 := congrFun ht 1
  refine ⟨t, flush1_10 t, ?_⟩
  rw [mem_blk_conc]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 1 ≤ (i 1).val ∧ (i 1).val < win1_10.index t (1 : Fin 2) * 1 + 1; omega

/-- After the call its first output array is the reference's last hidden array. -/
theorem final_last (c : Dev nD) :
    (dat1 (V3 m ρ) c).arrAt 9 cfg1.N = val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dat1 (V3 m ρ) c).arrAt_eq_of_cover 9 _ (fun t _ => flushed_last m ρ c t) cover_last

/-- After the call its second output array is the reference's first result. -/
theorem final_conc (c : Dev nD) :
    (dat1 (V3 m ρ) c).arrAt 10 cfg1.N = val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dat1 (V3 m ρ) c).arrAt_eq_of_cover 10 _ (fun t _ => flushed_conc m ρ c t) cover_conc

end Cert.KernelIdeal.HeadRegion

end
-- ==== Proof.Pooling.lean ====
/-
  The host operations after the second pallas_call, and the three results.

  The tail pools the last hidden rows per graph (a scatter-add over the graph ids, divided by the graph sizes
  clamped below at one) and applies the two remaining heads, the second through a softplus. These are the
  reference's own last operations, applied to the second call's first output; with that output equal to the
  reference's last hidden array, the two pooled results are the reference's. The first result is the second call's
  second output itself, which no later operation writes.
-/
import proofs.«118099_j42210938585671_1_alg».proof.Proof.HeadRegion

set_option maxRecDepth 16384

noncomputable section

namespace Cert.KernelIdeal.Pooling

open Cert.KernelIdeal Cert.KernelIdeal.Gen
open Idealize.ShloMosaic Idealize.ShloMosaic.TcCoe Idealize.ShloMosaic.StableHlo Idealize.SL.Sem
open Idealize.ShloMosaic.Pipeline (Dat)
open Cert.ReferenceIdeal.Read (val_main_v62 val_main_v67 val_main_v84 val_main_v89 val_main_v90)

variable (m : (ℓ : Loc nD τ sig) → Buf (Elt Ideal) ℓ) (ρ : Dev nD → PrngReg)

/-- A launch argument that is an array of neither call and that no host operation writes still holds its launch
    contents after the second call. -/
theorem after_head_arg (c : Dev nD) (b : Ref sig .tc) (hb1 : ∀ w, Pipeline.arrRef spec1 w ≠ b)
    (h1 : StableHlo.after hostOps1 (W2 m ρ c) (Proc.devRef .tc b) = W2 m ρ c (Proc.devRef .tc b))
    (hb0 : ∀ w, Pipeline.arrRef spec0 w ≠ b)
    (h0 : StableHlo.after hostOps0 (W0 m ρ c) (Proc.devRef .tc b) = W0 m ρ c (Proc.devRef .tc b)) :
    W4 m ρ c (Proc.devRef .tc b) = m ((c : Thread nD τ).loc b) :=
  (W4_of_ne m ρ c b hb1).trans (h1.trans (HeadEntry.after_conv_arg m ρ c b hb0 h0))

/-- The second call's first output: the reference's last hidden array. -/
theorem after_head_last (c : Dev nD) :
    W4 m ρ c (Proc.devRef .tc main_v53_0) = val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W4_arr m ρ c 9).trans (HeadRegion.final_last m ρ c)

/-- The second call's second output: the reference's first result. -/
theorem after_head_conc (c : Dev nD) :
    W4 m ρ c (Proc.devRef .tc main_v53_1) = val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 10).trans (HeadRegion.final_conc m ρ c)

/-- The first result: the concentrations, untouched by the tail. -/
theorem result0 (c : Dev nD) :
    W6 m ρ c (Proc.devRef .tc main_v53_1) = val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [W6, W5, hostOps2, hostOps2_1]
  after_results_simp
  exact after_head_conc m ρ c

/-- The second result: the pooled rows through the mean head. -/
theorem result1 (c : Dev nD) :
    W6 m ρ c (Proc.devRef .tc main_v70) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  dsimp only [W6, W5, hostOps2, hostOps2_1]
  after_results_simp
  rw [after_head_last, after_head_arg m ρ c main_arg2 (by decide) (by dsimp only [hostOps1]; after_results_simp) (by decide) (by dsimp only [hostOps0]; after_results),
    after_head_arg m ρ c main_arg11 (by decide) (by dsimp only [hostOps1]; after_results_simp) (by decide) (by dsimp only [hostOps0]; after_results),
    after_head_arg m ρ c main_arg12 (by decide) (by dsimp only [hostOps1]; after_results_simp) (by decide) (by dsimp only [hostOps0]; after_results)]
  rfl

/-- The deviation head before its softplus: the reference's. -/
theorem deviation (c : Dev nD) :
    W5 m ρ c (Proc.devRef .tc main_v75) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) := by
  dsimp only [W5, hostOps2]
  after_results_simp
  rw [after_head_last, after_head_arg m ρ c main_arg2 (by decide) (by dsimp only [hostOps1]; after_results_simp) (by decide) (by dsimp only [hostOps0]; after_results),
    after_head_arg m ρ c main_arg13 (by decide) (by dsimp only [hostOps1]; after_results_simp) (by decide) (by dsimp only [hostOps0]; after_results),
    after_head_arg m ρ c main_arg14 (by decide) (by dsimp only [hostOps1]; after_results_simp) (by decide) (by dsimp only [hostOps0]; after_results)]
  rfl

/-- The third result: the softplus of the deviation head, operation for operation the reference's. -/
theorem result2 (c : Dev nD) :
    W6 m ρ c (Proc.devRef .tc main_v76) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) := by
  have hd := deviation m ρ c
  dsimp only [W6]
  generalize W5 m ρ c = W at hd ⊢
  dsimp only [hostOps2_1]
  after_results_simp
  rw [hd]
  simp only [TRef.toBuf, TRef.ofBuf, cast_cast, cast_eq]
  rfl

end Cert.KernelIdeal.Pooling

end
-- ==== Proof.lean ====
/-
  Kernel against reference for a graph-convolution network: one GCN layer with symmetric normalisation and a
  residual, two dense layers, a per-node concentration head, and a per-graph mean pool feeding two more heads.

  The kernel computes the two dense stretches in pallas_calls over blocks of 5000 nodes — the convolution's matrix
  product, and the residual with both dense layers and the concentration head — and leaves the irregular parts (the
  aggregation over the edges, the pooling over the graphs) to the host, written exactly as the reference writes them.
  On the extended reals the changes of float format in the kernel bodies are the identity and a block's matrix
  product is the plain sum over the contracted axis, so each call's output array is, entry by entry, the
  reference's whole-array stage (ConvRegion, HeadRegion over RowSpec), and the host stretches around the calls are the
  reference's own operations on those arrays (HeadEntry, Pooling). No algebraic law beyond the definition of the
  operations is used, so the finiteness of the inputs is never needed: the two programs compute the same composition.

  The three frames are the generated ones (the reference's is its run with the results dropped); the idealization
  rewrote nothing, so `preserves` is trivial.
-/
import proofs.«118099_j42210938585671_1_alg».proof.Defs
import proofs.«118099_j42210938585671_1_alg».proof.Proof.Gen.Kernel
import proofs.«118099_j42210938585671_1_alg».proof.Proof.Gen.Kernel.Skeleton
import proofs.«118099_j42210938585671_1_alg».proof.Proof.Gen.Kernel.Launch
import proofs.«118099_j42210938585671_1_alg».proof.Proof.Gen.Kernel.Points
import proofs.«118099_j42210938585671_1_alg».proof.Proof.Gen.Kernel.Frame
import proofs.«118099_j42210938585671_1_alg».proof.Proof.Gen.KernelIdeal
import proofs.«118099_j42210938585671_1_alg».proof.Proof.Gen.KernelIdeal.Skeleton
import proofs.«118099_j42210938585671_1_alg».proof.Proof.Gen.KernelIdeal.Launch
import proofs.«118099_j42210938585671_1_alg».proof.Proof.Gen.KernelIdeal.Points
import proofs.«118099_j42210938585671_1_alg».proof.Proof.Gen.KernelIdeal.Frame
import proofs.«118099_j42210938585671_1_alg».proof.Proof.Gen.ReferenceIdeal
import proofs.«118099_j42210938585671_1_alg».proof.Proof.Gen.Pre_finite_inputs
import proofs.«118099_j42210938585671_1_alg».proof.Proof.Gen.ReferenceIdeal.Run
import proofs.«118099_j42210938585671_1_alg».proof.Proof.Gen.ReferenceIdeal.Read
import proofs.«118099_j42210938585671_1_alg».proof.Proof.KernelRun
import proofs.«118099_j42210938585671_1_alg».proof.Proof.Pooling
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the reference's three stages of the (agreeing) arguments. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.Results.run_all m ρ)
    exact ⟨(Cert.KernelIdeal.Results.read_W6 m ρ h c Cert.KernelIdeal.main_v53_1 (by decide)).trans (Cert.KernelIdeal.Pooling.result0 m ρ c),
      (Cert.KernelIdeal.Results.read_W6 m ρ h c Cert.KernelIdeal.main_v70 (by decide)).trans (Cert.KernelIdeal.Pooling.result1 m ρ c),
      (Cert.KernelIdeal.Results.read_W6 m ρ h c Cert.KernelIdeal.main_v76 (by decide)).trans (Cert.KernelIdeal.Pooling.result2 m ρ c),
      (Cert.KernelIdeal.Results.read_W6 m ρ h c Cert.KernelIdeal.main_arg0 (by decide)).trans (Cert.KernelIdeal.Gen.W6_main_arg0 m ρ c),
      (Cert.KernelIdeal.Results.read_W6 m ρ h c Cert.KernelIdeal.main_arg1 (by decide)).trans (Cert.KernelIdeal.Gen.W6_main_arg1 m ρ c),
      (Cert.KernelIdeal.Results.read_W6 m ρ h c Cert.KernelIdeal.main_arg2 (by decide)).trans (Cert.KernelIdeal.Gen.W6_main_arg2 m ρ c),
      (Cert.KernelIdeal.Results.read_W6 m ρ h c Cert.KernelIdeal.main_arg3 (by decide)).trans (Cert.KernelIdeal.Gen.W6_main_arg3 m ρ c),
      (Cert.KernelIdeal.Results.read_W6 m ρ h c Cert.KernelIdeal.main_arg4 (by decide)).trans (Cert.KernelIdeal.Gen.W6_main_arg4 m ρ c),
      (Cert.KernelIdeal.Results.read_W6 m ρ h c Cert.KernelIdeal.main_arg5 (by decide)).trans (Cert.KernelIdeal.Gen.W6_main_arg5 m ρ c),
      (Cert.KernelIdeal.Results.read_W6 m ρ h c Cert.KernelIdeal.main_arg6 (by decide)).trans (Cert.KernelIdeal.Gen.W6_main_arg6 m ρ c),
      (Cert.KernelIdeal.Results.read_W6 m ρ h c Cert.KernelIdeal.main_arg7 (by decide)).trans (Cert.KernelIdeal.Gen.W6_main_arg7 m ρ c),
      (Cert.KernelIdeal.Results.read_W6 m ρ h c Cert.KernelIdeal.main_arg8 (by decide)).trans (Cert.KernelIdeal.Gen.W6_main_arg8 m ρ c),
      (Cert.KernelIdeal.Results.read_W6 m ρ h c Cert.KernelIdeal.main_arg9 (by decide)).trans (Cert.KernelIdeal.Gen.W6_main_arg9 m ρ c),
      (Cert.KernelIdeal.Results.read_W6 m ρ h c Cert.KernelIdeal.main_arg10 (by decide)).trans (Cert.KernelIdeal.Gen.W6_main_arg10 m ρ c),
      (Cert.KernelIdeal.Results.read_W6 m ρ h c Cert.KernelIdeal.main_arg11 (by decide)).trans (Cert.KernelIdeal.Gen.W6_main_arg11 m ρ c),
      (Cert.KernelIdeal.Results.read_W6 m ρ h c Cert.KernelIdeal.main_arg12 (by decide)).trans (Cert.KernelIdeal.Gen.W6_main_arg12 m ρ c),
      (Cert.KernelIdeal.Results.read_W6 m ρ h c Cert.KernelIdeal.main_arg13 (by decide)).trans (Cert.KernelIdeal.Gen.W6_main_arg13 m ρ c),
      (Cert.KernelIdeal.Results.read_W6 m ρ h c Cert.KernelIdeal.main_arg14 (by decide)).trans (Cert.KernelIdeal.Gen.W6_main_arg14 m ρ c)⟩
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v67_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    · rw [(h c).2.1, Cert.ReferenceIdeal.Read.val_main_v84_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1]
    · rw [(h c).2.2.1, Cert.ReferenceIdeal.Read.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
